-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_2)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_2) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x512 : Shape := ⟨3, ![32, 1024, 512]⟩
abbrev S32x512 : Shape := ⟨2, ![32, 512]⟩
abbrev S32 : Shape := ⟨1, ![32]⟩
abbrev S_ : Shape := ⟨0, ![]⟩

class Facts : Prop where
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32x1024x512 .f32) (main_arg1 : FVec F S32x512 .f32) (main_arg2 : FVec F S32 .f32) : IVec S_ 1 :=
  let main_v0 : FVec F S32x1024x512 .f32 := Host.absf main_arg0
  let main_cst : FVec F S_ .f32 := constant S_ .f32 0x7F800000#32
  let main_v1 : FVec F S32x1024x512 .f32 := broadcastInDim S32x1024x512 ![] bcast_S_S32x1024x512 main_cst
  let main_v2 : IVec S32x1024x512 1 := cmpf .olt main_v0 main_v1
  let main_c : IVec S_ 1 := constantI S_ 1 1#1
  let main_v3 : IVec S_ 1 := (fun x v => Host.reduce IntOp.andi x v reducesTo_S32x1024x512_S_d0_1_2 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S32x1024x512 : Shape := ⟨3, ![32, 1024, 512]⟩
abbrev S32x512 : Shape := ⟨2, ![32, 512]⟩
abbrev S32 : Shape := ⟨1, ![32]⟩
abbrev S512x32 : Shape := ⟨2, ![512, 32]⟩
abbrev S1x32 : Shape := ⟨2, ![1, 32]⟩
abbrev S32x1x32 : Shape := ⟨3, ![32, 1, 32]⟩
abbrev S32x32x256 : Shape := ⟨3, ![32, 32, 256]⟩
abbrev S4x1024x512 : Shape := ⟨3, ![4, 1024, 512]⟩
abbrev S4x1x32 : Shape := ⟨3, ![4, 1, 32]⟩
abbrev S4x32x256 : Shape := ⟨3, ![4, 32, 256]⟩
abbrev S1x1024x512 : Shape := ⟨3, ![1, 1024, 512]⟩
abbrev S1024x512 : Shape := ⟨2, ![1024, 512]⟩
abbrev S1024x32 : Shape := ⟨2, ![1024, 32]⟩
abbrev S1024 : Shape := ⟨1, ![1024]⟩
abbrev S1024x1 : Shape := ⟨2, ![1024, 1]⟩
abbrev S1024x256 : Shape := ⟨2, ![1024, 256]⟩
abbrev S32x256 : Shape := ⟨2, ![32, 256]⟩
abbrev S32x1 : Shape := ⟨2, ![32, 1]⟩
abbrev S1x1x32 : Shape := ⟨3, ![1, 1, 32]⟩
abbrev S1x32x256 : Shape := ⟨3, ![1, 32, 256]⟩
abbrev S32x32 : Shape := ⟨2, ![32, 32]⟩

abbrev nBuf : Space → Nat
  | .hbm => 9
  | .vmem => 10
  | .smem => 0
  | _ => 0

abbrev bufTy : (tb : Table) → Fin (tcTables nBuf tb) → BufTy
  | .hbm, ⟨0, _⟩ => ⟨S32x1024x512, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S1x32, .f32⟩
  | .hbm, ⟨5, _⟩ => ⟨S32x1x32, .f32⟩
  | .hbm, ⟨6, _⟩ => ⟨S32x32x256, .f32⟩
  | .hbm, ⟨7, _⟩ => ⟨S32x32x256, .f32⟩
  | .hbm, ⟨8, _⟩ => ⟨S32x32, .f32⟩
  | .local _ .vmem, ⟨0, _⟩ => ⟨S4x1024x512, .f32⟩
  | .local _ .vmem, ⟨1, _⟩ => ⟨S4x1024x512, .f32⟩
  | .local _ .vmem, ⟨2, _⟩ => ⟨S512x32, .f32⟩
  | .local _ .vmem, ⟨3, _⟩ => ⟨S1x32, .f32⟩
  | .local _ .vmem, ⟨4, _⟩ => ⟨S4x1x32, .f32⟩
  | .local _ .vmem, ⟨5, _⟩ => ⟨S4x1x32, .f32⟩
  | .local _ .vmem, ⟨6, _⟩ => ⟨S4x32x256, .f32⟩
  | .local _ .vmem, ⟨7, _⟩ => ⟨S4x32x256, .f32⟩
  | .local _ .vmem, ⟨8, _⟩ => ⟨S4x32x256, .f32⟩
  | .local _ .vmem, ⟨9, _⟩ => ⟨S4x32x256, .f32⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v5 : BitVec 32 := Scalar.addi c0_i32 c4_i32
  let c1_i32 : BitVec 32 := 1#32
  ⟨c0_i32, v5, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v6 : Index := Scalar.indexCast arg7
  let c0_4 : Index := 0#32
  let c0_5 : Index := 0#32
  ![v6.toNat, 0, 0]
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let v48 : Index := Scalar.indexCast arg7
  let c0_14 : Index := 0#32
  let c0_15 : Index := 0#32
  ![v48.toNat, 0, 0]
def k0_off3 (k0_t1 : Fin k0_t1_loop.trips) : Fin 3 → Nat :=
  let c0_i32 : BitVec 32 := 0#32
  let c1_i32 : BitVec 32 := 1#32
  let arg7 : BitVec 32 := Scf.iv c0_i32 c1_i32 k0_t1
  let v52 : Index := Scalar.indexCast arg7
  let c0_16 : Index := 0#32
  let c0_17 : Index := 0#32
  ![v52.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S32x512_S512x32_1_0 : S32x512.Transposes [1, 0] S512x32
  shapeCasts_S32_S1x32 : S32.ShapeCasts S1x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  h_S1x1024x512 : 0 < S1x1024x512.numel
  shapeCasts_S1x1024x512_S1024x512 : S1x1024x512.ShapeCasts S1024x512
  broadcasts_S1x32_S1024x32 : S1x32.Broadcasts S1024x32
  reduces_S1024x32_S1024 : S1024x32.Reduces [1] S1024
  shapeCasts_S1024_S1024x1 : S1024.ShapeCasts S1024x1
  broadcasts_S1024x1_S1024x32 : S1024x1.Broadcasts S1024x32
  slices_S1024x512_o0_0_S1024x256 : S1024x512.Slices ![0, 0] S1024x256
  slices_S1024x512_o0_256_S1024x256 : S1024x512.Slices ![0, 256] S1024x256
  reduces_S1024x32_S32 : S1024x32.Reduces [0] S32
  shapeCasts_S32_S32x1 : S32.ShapeCasts S32x1
  broadcasts_S32x1_S32x256 : S32x1.Broadcasts S32x256
  h_S1x1x32 : 0 < S1x1x32.numel
  shapeCasts_S1x1x32_S1x32 : S1x1x32.ShapeCasts S1x32
  shapeCasts_S1x32_S1x1x32 : S1x32.ShapeCasts S1x1x32
  h_S1x32x256 : 0 < S1x32x256.numel
  shapeCasts_S1x32x256_S32x256 : S1x32x256.ShapeCasts S32x256
  shapeCasts_S32x256_S1x32x256 : S32x256.ShapeCasts S1x32x256
  shapeCasts_S32x1x32_S32x32 : S32x1x32.ShapeCasts S32x32
  dot_S1024x512_S512x32_S1024x32_1_0_0_1_n_n_wf : DotDims.WF S1024x512 S512x32 S1024x32 [1] [0] [0] [1] [] []
  dot_S1024x32_S1024x256_S32x256_0_0_1_1_n_n_wf : DotDims.WF S1024x32 S1024x256 S32x256 [0] [0] [1] [1] [] []
  hrank0 : 0 < grid0.rank
  k0_t1_ok : k0_t1_loop.OK
  k0_off1_inb : ∀ k0_t1 : Fin k0_t1_loop.trips, ∀ a, (k0_off1 k0_t1) a + S1x1024x512.size a ≤ S4x1024x512.size a
  k0_off2_inb : ∀ k0_t1 : Fin k0_t1_loop.trips, ∀ a, (k0_off2 k0_t1) a + S1x1x32.size a ≤ S4x1x32.size a
  k0_off3_inb : ∀ k0_t1 : Fin k0_t1_loop.trips, ∀ a, (k0_off3 k0_t1) a + S1x32x256.size a ≤ S4x32x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x512.size a ≤ S32x1024x512.size a
  hwx0_0 : ∀ i : grid0.Coords, EltTy.bits .f32 = 32 ∨ (Rect.block (s := S32x1024x512) S4x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x32.size a ≤ S32x1x32.size a
  hwx0_3 : ∀ i : grid0.Coords, EltTy.bits .f32 = 32 ∨ (Rect.block (s := S32x1x32) S4x1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x32x256.size a ≤ S32x32x256.size a
  hwx0_4 : ∀ i : grid0.Coords, EltTy.bits .f32 = 32 ∨ (Rect.block (s := S32x32x256) S4x32x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x32x256.size a ≤ S32x32x256.size a
  hwx0_5 : ∀ i : grid0.Coords, EltTy.bits .f32 = 32 ∨ (Rect.block (s := S32x32x256) S4x32x256.size (cc0_transform_5 i) (hinb0_5 i)).WholeWords (EltTy.packing .f32)

variable [Facts₀]

def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S1024x32_S1024x256_S32x256_0_0_1_1_n_n : DotDims S1024x32 S1024x256 S32x256 where
  lhsContracting := [0]
  rhsContracting := [0]
  lhsNonContracting := [1]
  rhsNonContracting := [1]
  lhsBatch := []
  rhsBatch := []
  wf := dot_S1024x32_S1024x256_S32x256_0_0_1_1_n_n_wf

abbrev win0_0 : Pipeline.Window sig grid0 :=
  Pipeline.Window.ofSpec (Memref.whole main_arg0) S4x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S4x1x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S4x32x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S4x32x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1024x512 : Shape := ⟨3, ![32, 1024, 512]⟩
abbrev S32x512 : Shape := ⟨2, ![32, 512]⟩
abbrev S32 : Shape := ⟨1, ![32]⟩
abbrev S32x1024x32 : Shape := ⟨3, ![32, 1024, 32]⟩
abbrev S1x1x32 : Shape := ⟨3, ![1, 1, 32]⟩
abbrev S_ : Shape := ⟨0, ![]⟩
abbrev S32x1024 : Shape := ⟨2, ![32, 1024]⟩
abbrev S32x1024x1 : Shape := ⟨3, ![32, 1024, 1]⟩
abbrev S32x1024x256 : Shape := ⟨3, ![32, 1024, 256]⟩
abbrev S32x32 : Shape := ⟨2, ![32, 32]⟩
abbrev S32x32x256 : Shape := ⟨3, ![32, 32, 256]⟩
abbrev S32x32x1 : Shape := ⟨3, ![32, 32, 1]⟩

abbrev nBuf : Space → Nat
  | .hbm => 47
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S32x512, .f32⟩
  | .hbm, ⟨2, _⟩ => ⟨S32, .f32⟩
  | .hbm, ⟨3, _⟩ => ⟨S32x1024x32, .f32⟩
  | .hbm, ⟨4, _⟩ => ⟨S1x1x32, .f32⟩
  | .hbm, ⟨5, _⟩ => ⟨S32x1024x32, .f32⟩
  | .hbm, ⟨6, _⟩ => ⟨S32x1024x32, .f32⟩
  | .hbm, ⟨7, _⟩ => ⟨S_, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S32x1024x1, .f32⟩
  | .hbm, ⟨13, _⟩ => ⟨S32x1024x32, .f32⟩
  | .hbm, ⟨14, _⟩ => ⟨S32x1024x32, .f32⟩
  | .hbm, ⟨15, _⟩ => ⟨S32x1024x32, .f32⟩
  | .hbm, ⟨16, _⟩ => ⟨S_, .f32⟩
  | .hbm, ⟨17, _⟩ => ⟨S32x1024, .f32⟩
  | .hbm, ⟨18, _⟩ => ⟨S32x1024x1, .f32⟩
  | .hbm, ⟨19, _⟩ => ⟨S32x1024x32, .f32⟩
  | .hbm, ⟨20, _⟩ => ⟨S32x1024x32, .f32⟩
  | .hbm, ⟨21, _⟩ => ⟨S32x1024x256, .f32⟩
  | .hbm, ⟨22, _⟩ => ⟨S32x1024x256, .f32⟩
  | .hbm, ⟨23, _⟩ => ⟨S_, .f32⟩
  | .hbm, ⟨24, _⟩ => ⟨S32x32, .f32⟩
  | .hbm, ⟨25, _⟩ => ⟨S_, .f32⟩
  | .hbm, ⟨26, _⟩ => ⟨S32x32, .f32⟩
  | .hbm, ⟨27, _⟩ => ⟨S32x32, .f32⟩
  | .hbm, ⟨28, _⟩ => ⟨S_, .f32⟩
  | .hbm, ⟨29, _⟩ => ⟨S32x32, .f32⟩
  | .hbm, ⟨30, _⟩ => ⟨S32x32x256, .f32⟩
  | .hbm, ⟨31, _⟩ => ⟨S32x32x1, .f32⟩
  | .hbm, ⟨32, _⟩ => ⟨S32x32x256, .f32⟩
  | .hbm, ⟨33, _⟩ => ⟨S32x32x256, .f32⟩
  | .hbm, ⟨34, _⟩ => ⟨S32x1024x256, .f32⟩
  | .hbm, ⟨35, _⟩ => ⟨S32x1024x256, .f32⟩
  | .hbm, ⟨36, _⟩ => ⟨S32x1024x256, .f32⟩
  | .hbm, ⟨37, _⟩ => ⟨S32x32x256, .f32⟩
  | .hbm, ⟨38, _⟩ => ⟨S32x32x1, .f32⟩
  | .hbm, ⟨39, _⟩ => ⟨S32x32x256, .f32⟩
  | .hbm, ⟨40, _⟩ => ⟨S32x32x256, .f32⟩
  | .hbm, ⟨41, _⟩ => ⟨S32x32x256, .f32⟩
  | .hbm, ⟨42, _⟩ => ⟨S32x32x256, .f32⟩
  | .hbm, ⟨43, _⟩ => ⟨S_, .f32⟩
  | .hbm, ⟨44, _⟩ => ⟨S32x32x256, .f32⟩
  | .hbm, ⟨45, _⟩ => ⟨S32x32x256, .f32⟩
  | .hbm, ⟨46, _⟩ => ⟨S32x32x256, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S32x1024x32_0_1_2 : S1x1x32.BroadcastsInDim S32x1024x32 (![0, 1, 2] : Fin 3 → Fin S32x1024x32.rank)
  reducesTo_S32x1024x32_S32x1024_d2 : S32x1024x32.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x32_0_1_2 : S32x1024x1.BroadcastsInDim S32x1024x32 (![0, 1, 2] : Fin 3 → Fin S32x1024x32.rank)
  slices_S32x1024x512_S32x1024x256_0_0_0 : S32x1024x512.Slices ![0, 0, 0] S32x1024x256
  slices_S32x1024x512_S32x1024x256_0_0_256 : S32x1024x512.Slices ![0, 0, 256] S32x1024x256
  reducesTo_S32x1024x32_S32x32_d1 : S32x1024x32.ReducesTo [1] S32x32
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S32x32x1_S32x32x256_0_1_2 : S32x32x1.BroadcastsInDim S32x32x256 (![0, 1, 2] : Fin 3 → Fin S32x32x256.rank)
  bcast_S_S32x32x256 : S_.BroadcastsInDim S32x32x256 (![] : Fin 0 → Fin S32x32x256.rank)
  dot_S32x1024x512_S32x512_S32x1024x32_2_1_01_0_n_n_wf : DotDims.WF S32x1024x512 S32x512 S32x1024x32 [2] [1] [0, 1] [0] [] []
  dot_S32x1024x32_S32x1024x256_S32x32x256_1_1_2_2_0_0_wf : DotDims.WF S32x1024x32 S32x1024x256 S32x32x256 [1] [1] [2] [2] [0] [0]

variable [Facts₀]

def dot_S32x1024x512_S32x512_S32x1024x32_2_1_01_0_n_n : DotDims S32x1024x512 S32x512 S32x1024x32 where
  lhsContracting := [2]
  rhsContracting := [1]
  lhsNonContracting := [0, 1]
  rhsNonContracting := [0]
  lhsBatch := []
  rhsBatch := []
  wf := dot_S32x1024x512_S32x512_S32x1024x32_2_1_01_0_n_n_wf
def dot_S32x1024x32_S32x1024x256_S32x32x256_1_1_2_2_0_0 : DotDims S32x1024x32 S32x1024x256 S32x32x256 where
  lhsContracting := [1]
  rhsContracting := [1]
  lhsNonContracting := [2]
  rhsNonContracting := [2]
  lhsBatch := [0]
  rhsBatch := [0]
  wf := dot_S32x1024x32_S32x1024x256_S32x32x256_1_1_2_2_0_0_wf

class Facts : Prop extends Facts₀ where

variable [Facts]
-- ==== Proof.LoopPiecesBits.lean ====
/-
  What the kernel body's loop over the four batch members of a block stores, for the program as printed (the same
  statements as for the idealized program, over the printed program's own names).

  Trip `k` of the loop loads slab `k` of the input block (a `[1, 1024, 512]` rectangle at offset `(k, 0, 0)`), and
  stores three things, each through a unit-stride rectangle at offset `(k, 0, 0)` of its output block: the mean masses
  (`[1, 1, 32]`), the locations and the scales (`[1, 32, 256]` each), every one a pure function of that slab, of the
  transposed weights and of the bias row. Nothing a trip stores depends on what the output blocks held before. So
  after any number of trips every stored piece is one of these, and this is all that the rest of the proof uses.
-/
import proofs.«141120_j24472723652814_2_alg».proof.Proof.Gen.Kernel.Loops
import Idealize.ShloMosaic.Lib.Pipeline.Value

noncomputable section

namespace Cert.Mdn.BodyBits

open Cert.Kernel Cert.Kernel.Gen
open Idealize.ShloMosaic Idealize.ShloMosaic.TcCoe Idealize.SL.Sem

variable {F : FTy → Type} [FloatOps F]

/-- The slab trip `k` loads from the input block's staging memref holding `X`. -/
abbrev tripSlab (arg1 : Memref sig .tc .vmem S4x1024x512 .f32) (X : BufTy.Contents (Elt F) arg1.view.ty)
    (k : Fin k0_t1_loop.trips) : Vec F S1x1024x512 .f32 :=
  View.readAt (Elt F) arg1.view (Rect.unit (s := S4x1024x512) (k0_off1 k) S1x1024x512.size (k0_off1_inb k)).toLoadRect X

/-- Trip `k`'s store into the block of mean masses. -/
abbrev pieceW (arg1 : Memref sig .tc .vmem S4x1024x512 .f32) (v0 : Vec F S512x32 .f32) (v3 : Vec F S1x32 .f32)
    (X : BufTy.Contents (Elt F) arg1.view.ty) (k : Fin k0_t1_loop.trips) : View.Piece (Elt F) S4x1x32 .f32 :=
  ⟨Rect.unit (s := S4x1x32) (k0_off2 k) S1x1x32.size (k0_off2_inb k), k0_pay13 (k0_pay1 v0) (k0_pay2 v3) (tripSlab arg1 X k)⟩

/-- Trip `k`'s store into the block of locations. -/
abbrev pieceL (arg1 : Memref sig .tc .vmem S4x1024x512 .f32) (v0 : Vec F S512x32 .f32) (v3 : Vec F S1x32 .f32)
    (X : BufTy.Contents (Elt F) arg1.view.ty) (k : Fin k0_t1_loop.trips) : View.Piece (Elt F) S4x32x256 .f32 :=
  ⟨Rect.unit (s := S4x32x256) (k0_off3 k) S1x32x256.size (k0_off3_inb k), k0_pay3 (k0_pay11 (k0_pay1 v0) (k0_pay2 v3) (tripSlab arg1 X k))⟩

/-- Trip `k`'s store into the block of scales. -/
abbrev pieceS (arg1 : Memref sig .tc .vmem S4x1024x512 .f32) (v0 : Vec F S512x32 .f32) (v3 : Vec F S1x32 .f32)
    (X : BufTy.Contents (Elt F) arg1.view.ty) (k : Fin k0_t1_loop.trips) : View.Piece (Elt F) S4x32x256 .f32 :=
  ⟨Rect.unit (s := S4x32x256) (k0_off3 k) S1x32x256.size (k0_off3_inb k), k0_pay4 (k0_pay12 (k0_pay1 v0) (k0_pay2 v3) (tripSlab arg1 X k))⟩

/-- One trip stores exactly these three pieces, whatever the output blocks held. -/
theorem trip_pieces (𝒱 : Variants) (c : Dev nD) (bd : Option 𝒱.V) (i : grid0.Coords) (arg1 : Memref sig .tc .vmem S4x1024x512 .f32) (harg1 : arg1.IsWhole) (arg2 : Memref sig .tc .vmem S512x32 .f32) (harg2 : arg2.IsWhole) (arg3 : Memref sig .tc .vmem S1x32 .f32) (harg3 : arg3.IsWhole) (arg4 : Memref sig .tc .vmem S4x1x32 .f32) (harg4 : arg4.IsWhole) (arg5 : Memref sig .tc .vmem S4x32x256 .f32) (harg5 : arg5.IsWhole) (arg6 : Memref sig .tc .vmem S4x32x256 .f32) (harg6 : arg6.IsWhole)
    (v0 : Vec F S512x32 .f32) (v3 : Vec F S1x32 .f32) (X : BufTy.Contents (Elt F) arg1.view.ty) (k : Fin k0_t1_loop.trips)
    (f4 : BufTy.Contents (Elt F) arg4.view.ty) (f5 : BufTy.Contents (Elt F) arg5.view.ty) (f6 : BufTy.Contents (Elt F) arg6.view.ty) :
    tripL_k0_t1 (F := F) 𝒱 c bd i arg1 harg1 arg2 harg2 arg3 harg3 arg4 harg4 arg5 harg5 arg6 harg6 v0 v3 X k f4 f5 f6
      = ([pieceW arg1 v0 v3 X k], [pieceL arg1 v0 v3 X k], [pieceS arg1 v0 v3 X k]) := by
  unfold tripL_k0_t1 trip_k0_t1
  rfl

/-- Every piece of three lists is a trip's store of its kind. -/
def AllTrips (arg1 : Memref sig .tc .vmem S4x1024x512 .f32) (v0 : Vec F S512x32 .f32) (v3 : Vec F S1x32 .f32)
    (X : BufTy.Contents (Elt F) arg1.view.ty)
    (L : List (View.Piece (Elt F) S4x1x32 .f32) × List (View.Piece (Elt F) S4x32x256 .f32) × List (View.Piece (Elt F) S4x32x256 .f32)) : Prop :=
  (∀ p ∈ L.1, ∃ k, p = pieceW arg1 v0 v3 X k) ∧ (∀ p ∈ L.2.1, ∃ k, p = pieceL arg1 v0 v3 X k)
    ∧ (∀ p ∈ L.2.2, ∃ k, p = pieceS arg1 v0 v3 X k)

/-- After any number of trips, every stored piece is a trip's store of its kind. -/
theorem pb_allTrips (𝒱 : Variants) (c : Dev nD) (bd : Option 𝒱.V) (i : grid0.Coords) (arg1 : Memref sig .tc .vmem S4x1024x512 .f32) (harg1 : arg1.IsWhole) (arg2 : Memref sig .tc .vmem S512x32 .f32) (harg2 : arg2.IsWhole) (arg3 : Memref sig .tc .vmem S1x32 .f32) (harg3 : arg3.IsWhole) (arg4 : Memref sig .tc .vmem S4x1x32 .f32) (harg4 : arg4.IsWhole) (arg5 : Memref sig .tc .vmem S4x32x256 .f32) (harg5 : arg5.IsWhole) (arg6 : Memref sig .tc .vmem S4x32x256 .f32) (harg6 : arg6.IsWhole)
    (v0 : Vec F S512x32 .f32) (v3 : Vec F S1x32 .f32) (X : BufTy.Contents (Elt F) arg1.view.ty)
    (G4 : BufTy.Contents (Elt F) arg4.view.ty) (G5 : BufTy.Contents (Elt F) arg5.view.ty) (G6 : BufTy.Contents (Elt F) arg6.view.ty) (n : ℕ) :
    AllTrips arg1 v0 v3 X (pb_k0_t1 (F := F) 𝒱 c bd i arg1 harg1 arg2 harg2 arg3 harg3 arg4 harg4 arg5 harg5 arg6 harg6 v0 v3 X G4 G5 G6 n) := by
  induction n with
  | zero => exact ⟨fun p hp => absurd hp List.not_mem_nil, fun p hp => absurd hp List.not_mem_nil, fun p hp => absurd hp List.not_mem_nil⟩
  | succ n ih =>
    rw [pb_k0_t1.eq_2]
    unfold pb_k0_t1Step
    split
    · rename_i h
      rw [trip_pieces]
      obtain ⟨h1, h2, h3⟩ := ih
      refine ⟨fun p hp => ?_, fun p hp => ?_, fun p hp => ?_⟩
      · rcases List.mem_append.mp hp with hp | hp
        · exact ⟨⟨n, h⟩, List.mem_singleton.mp hp⟩
        · exact h1 p hp
      · rcases List.mem_append.mp hp with hp | hp
        · exact ⟨⟨n, h⟩, List.mem_singleton.mp hp⟩
        · exact h2 p hp
      · rcases List.mem_append.mp hp with hp | hp
        · exact ⟨⟨n, h⟩, List.mem_singleton.mp hp⟩
        · exact h3 p hp
    · exact ih

/-- What the trips store does not depend on what the output blocks held when the loop was entered. -/
theorem pb_indep (𝒱 : Variants) (c : Dev nD) (bd : Option 𝒱.V) (i : grid0.Coords) (arg1 : Memref sig .tc .vmem S4x1024x512 .f32) (harg1 : arg1.IsWhole) (arg2 : Memref sig .tc .vmem S512x32 .f32) (harg2 : arg2.IsWhole) (arg3 : Memref sig .tc .vmem S1x32 .f32) (harg3 : arg3.IsWhole) (arg4 : Memref sig .tc .vmem S4x1x32 .f32) (harg4 : arg4.IsWhole) (arg5 : Memref sig .tc .vmem S4x32x256 .f32) (harg5 : arg5.IsWhole) (arg6 : Memref sig .tc .vmem S4x32x256 .f32) (harg6 : arg6.IsWhole)
    (v0 : Vec F S512x32 .f32) (v3 : Vec F S1x32 .f32) (X : BufTy.Contents (Elt F) arg1.view.ty)
    (G4 G4' : BufTy.Contents (Elt F) arg4.view.ty) (G5 G5' : BufTy.Contents (Elt F) arg5.view.ty) (G6 G6' : BufTy.Contents (Elt F) arg6.view.ty) (n : ℕ) :
    pb_k0_t1 (F := F) 𝒱 c bd i arg1 harg1 arg2 harg2 arg3 harg3 arg4 harg4 arg5 harg5 arg6 harg6 v0 v3 X G4 G5 G6 n
      = pb_k0_t1 (F := F) 𝒱 c bd i arg1 harg1 arg2 harg2 arg3 harg3 arg4 harg4 arg5 harg5 arg6 harg6 v0 v3 X G4' G5' G6' n := by
  induction n with
  | zero => rfl
  | succ n ih =>
    rw [pb_k0_t1.eq_2, pb_k0_t1.eq_2]
    unfold pb_k0_t1Step
    by_cases h : n < k0_t1_loop.trips
    · rw [dif_pos h, dif_pos h, trip_pieces, trip_pieces, ih]
    · rw [dif_neg h, dif_neg h, ih]

end Cert.Mdn.BodyBits

end
-- ==== Proof.LoopPieces.lean ====
/-
  What the kernel body's loop over the four batch members of a block stores.

  Trip `k` of the loop loads slab `k` of the input block (a `[1, 1024, 512]` rectangle at offset `(k, 0, 0)`), and
  stores three things, each through a unit-stride rectangle at offset `(k, 0, 0)` of its output block: the mean masses
  (`[1, 1, 32]`), the locations and the scales (`[1, 32, 256]` each), every one a pure function of that slab, of the
  transposed weights and of the bias row. Nothing a trip stores depends on what the output blocks held before. So
  after any number of trips every stored piece is one of these, and this is all that the rest of the proof uses.
-/
import proofs.«141120_j24472723652814_2_alg».proof.Proof.Gen.KernelIdeal.Loops
import Idealize.ShloMosaic.Lib.Pipeline.Value

noncomputable section

namespace Cert.Mdn.Body

open Cert.KernelIdeal Cert.KernelIdeal.Gen
open Idealize.ShloMosaic Idealize.ShloMosaic.TcCoe Idealize.SL.Sem

variable {F : FTy → Type} [FloatOps F]

/-- The slab trip `k` loads from the input block's staging memref holding `X`. -/
abbrev tripSlab (arg1 : Memref sig .tc .vmem S4x1024x512 .f32) (X : BufTy.Contents (Elt F) arg1.view.ty)
    (k : Fin k0_t1_loop.trips) : Vec F S1x1024x512 .f32 :=
  View.readAt (Elt F) arg1.view (Rect.unit (s := S4x1024x512) (k0_off1 k) S1x1024x512.size (k0_off1_inb k)).toLoadRect X

/-- Trip `k`'s store into the block of mean masses. -/
abbrev pieceW (arg1 : Memref sig .tc .vmem S4x1024x512 .f32) (v0 : Vec F S512x32 .f32) (v3 : Vec F S1x32 .f32)
    (X : BufTy.Contents (Elt F) arg1.view.ty) (k : Fin k0_t1_loop.trips) : View.Piece (Elt F) S4x1x32 .f32 :=
  ⟨Rect.unit (s := S4x1x32) (k0_off2 k) S1x1x32.size (k0_off2_inb k), k0_pay13 (k0_pay1 v0) (k0_pay2 v3) (tripSlab arg1 X k)⟩

/-- Trip `k`'s store into the block of locations. -/
abbrev pieceL (arg1 : Memref sig .tc .vmem S4x1024x512 .f32) (v0 : Vec F S512x32 .f32) (v3 : Vec F S1x32 .f32)
    (X : BufTy.Contents (Elt F) arg1.view.ty) (k : Fin k0_t1_loop.trips) : View.Piece (Elt F) S4x32x256 .f32 :=
  ⟨Rect.unit (s := S4x32x256) (k0_off3 k) S1x32x256.size (k0_off3_inb k), k0_pay3 (k0_pay11 (k0_pay1 v0) (k0_pay2 v3) (tripSlab arg1 X k))⟩

/-- Trip `k`'s store into the block of scales. -/
abbrev pieceS (arg1 : Memref sig .tc .vmem S4x1024x512 .f32) (v0 : Vec F S512x32 .f32) (v3 : Vec F S1x32 .f32)
    (X : BufTy.Contents (Elt F) arg1.view.ty) (k : Fin k0_t1_loop.trips) : View.Piece (Elt F) S4x32x256 .f32 :=
  ⟨Rect.unit (s := S4x32x256) (k0_off3 k) S1x32x256.size (k0_off3_inb k), k0_pay4 (k0_pay12 (k0_pay1 v0) (k0_pay2 v3) (tripSlab arg1 X k))⟩

/-- One trip stores exactly these three pieces, whatever the output blocks held. -/
theorem trip_pieces (𝒱 : Variants) (c : Dev nD) (bd : Option 𝒱.V) (i : grid0.Coords) (arg1 : Memref sig .tc .vmem S4x1024x512 .f32) (harg1 : arg1.IsWhole) (arg2 : Memref sig .tc .vmem S512x32 .f32) (harg2 : arg2.IsWhole) (arg3 : Memref sig .tc .vmem S1x32 .f32) (harg3 : arg3.IsWhole) (arg4 : Memref sig .tc .vmem S4x1x32 .f32) (harg4 : arg4.IsWhole) (arg5 : Memref sig .tc .vmem S4x32x256 .f32) (harg5 : arg5.IsWhole) (arg6 : Memref sig .tc .vmem S4x32x256 .f32) (harg6 : arg6.IsWhole)
    (v0 : Vec F S512x32 .f32) (v3 : Vec F S1x32 .f32) (X : BufTy.Contents (Elt F) arg1.view.ty) (k : Fin k0_t1_loop.trips)
    (f4 : BufTy.Contents (Elt F) arg4.view.ty) (f5 : BufTy.Contents (Elt F) arg5.view.ty) (f6 : BufTy.Contents (Elt F) arg6.view.ty) :
    tripL_k0_t1 (F := F) 𝒱 c bd i arg1 harg1 arg2 harg2 arg3 harg3 arg4 harg4 arg5 harg5 arg6 harg6 v0 v3 X k f4 f5 f6
      = ([pieceW arg1 v0 v3 X k], [pieceL arg1 v0 v3 X k], [pieceS arg1 v0 v3 X k]) := by
  unfold tripL_k0_t1 trip_k0_t1
  rfl

/-- Every piece of three lists is a trip's store of its kind. -/
def AllTrips (arg1 : Memref sig .tc .vmem S4x1024x512 .f32) (v0 : Vec F S512x32 .f32) (v3 : Vec F S1x32 .f32)
    (X : BufTy.Contents (Elt F) arg1.view.ty)
    (L : List (View.Piece (Elt F) S4x1x32 .f32) × List (View.Piece (Elt F) S4x32x256 .f32) × List (View.Piece (Elt F) S4x32x256 .f32)) : Prop :=
  (∀ p ∈ L.1, ∃ k, p = pieceW arg1 v0 v3 X k) ∧ (∀ p ∈ L.2.1, ∃ k, p = pieceL arg1 v0 v3 X k)
    ∧ (∀ p ∈ L.2.2, ∃ k, p = pieceS arg1 v0 v3 X k)

/-- After any number of trips, every stored piece is a trip's store of its kind. -/
theorem pb_allTrips (𝒱 : Variants) (c : Dev nD) (bd : Option 𝒱.V) (i : grid0.Coords) (arg1 : Memref sig .tc .vmem S4x1024x512 .f32) (harg1 : arg1.IsWhole) (arg2 : Memref sig .tc .vmem S512x32 .f32) (harg2 : arg2.IsWhole) (arg3 : Memref sig .tc .vmem S1x32 .f32) (harg3 : arg3.IsWhole) (arg4 : Memref sig .tc .vmem S4x1x32 .f32) (harg4 : arg4.IsWhole) (arg5 : Memref sig .tc .vmem S4x32x256 .f32) (harg5 : arg5.IsWhole) (arg6 : Memref sig .tc .vmem S4x32x256 .f32) (harg6 : arg6.IsWhole)
    (v0 : Vec F S512x32 .f32) (v3 : Vec F S1x32 .f32) (X : BufTy.Contents (Elt F) arg1.view.ty)
    (G4 : BufTy.Contents (Elt F) arg4.view.ty) (G5 : BufTy.Contents (Elt F) arg5.view.ty) (G6 : BufTy.Contents (Elt F) arg6.view.ty) (n : ℕ) :
    AllTrips arg1 v0 v3 X (pb_k0_t1 (F := F) 𝒱 c bd i arg1 harg1 arg2 harg2 arg3 harg3 arg4 harg4 arg5 harg5 arg6 harg6 v0 v3 X G4 G5 G6 n) := by
  induction n with
  | zero => exact ⟨fun p hp => absurd hp List.not_mem_nil, fun p hp => absurd hp List.not_mem_nil, fun p hp => absurd hp List.not_mem_nil⟩
  | succ n ih =>
    rw [pb_k0_t1.eq_2]
    unfold pb_k0_t1Step
    split
    · rename_i h
      rw [trip_pieces]
      obtain ⟨h1, h2, h3⟩ := ih
      refine ⟨fun p hp => ?_, fun p hp => ?_, fun p hp => ?_⟩
      · rcases List.mem_append.mp hp with hp | hp
        · exact ⟨⟨n, h⟩, List.mem_singleton.mp hp⟩
        · exact h1 p hp
      · rcases List.mem_append.mp hp with hp | hp
        · exact ⟨⟨n, h⟩, List.mem_singleton.mp hp⟩
        · exact h2 p hp
      · rcases List.mem_append.mp hp with hp | hp
        · exact ⟨⟨n, h⟩, List.mem_singleton.mp hp⟩
        · exact h3 p hp
    · exact ih

/-- What the trips store does not depend on what the output blocks held when the loop was entered. -/
theorem pb_indep (𝒱 : Variants) (c : Dev nD) (bd : Option 𝒱.V) (i : grid0.Coords) (arg1 : Memref sig .tc .vmem S4x1024x512 .f32) (harg1 : arg1.IsWhole) (arg2 : Memref sig .tc .vmem S512x32 .f32) (harg2 : arg2.IsWhole) (arg3 : Memref sig .tc .vmem S1x32 .f32) (harg3 : arg3.IsWhole) (arg4 : Memref sig .tc .vmem S4x1x32 .f32) (harg4 : arg4.IsWhole) (arg5 : Memref sig .tc .vmem S4x32x256 .f32) (harg5 : arg5.IsWhole) (arg6 : Memref sig .tc .vmem S4x32x256 .f32) (harg6 : arg6.IsWhole)
    (v0 : Vec F S512x32 .f32) (v3 : Vec F S1x32 .f32) (X : BufTy.Contents (Elt F) arg1.view.ty)
    (G4 G4' : BufTy.Contents (Elt F) arg4.view.ty) (G5 G5' : BufTy.Contents (Elt F) arg5.view.ty) (G6 G6' : BufTy.Contents (Elt F) arg6.view.ty) (n : ℕ) :
    pb_k0_t1 (F := F) 𝒱 c bd i arg1 harg1 arg2 harg2 arg3 harg3 arg4 harg4 arg5 harg5 arg6 harg6 v0 v3 X G4 G5 G6 n
      = pb_k0_t1 (F := F) 𝒱 c bd i arg1 harg1 arg2 harg2 arg3 harg3 arg4 harg4 arg5 harg5 arg6 harg6 v0 v3 X G4' G5' G6' n := by
  induction n with
  | zero => rfl
  | succ n ih =>
    rw [pb_k0_t1.eq_2, pb_k0_t1.eq_2]
    unfold pb_k0_t1Step
    by_cases h : n < k0_t1_loop.trips
    · rw [dif_pos h, dif_pos h, trip_pieces, trip_pieces, ih]
    · rw [dif_neg h, dif_neg h, ih]

end Cert.Mdn.Body

end
-- ==== Proof.Slab.lean ====
/-
  One batch member's slab of a block of four: entry `(0, n, d)` of the slab is entry `(j, n, d)` of the block.
-/
import Idealize.ShloMosaic.Lib.ValueIdx

namespace Cert.Mdn

open Idealize.ShloMosaic Idealize.ShloMosaic.ValueIdx

/-- Slab `j` of a `[4, 1024, 512]` block, as a `[1, 1024, 512]` array. -/
def slabAt {α : Type} (x0 : (⟨3, ![4, 1024, 512]⟩ : Shape).Idx → α) (j : Fin 4) : (⟨3, ![1, 1024, 512]⟩ : Shape).Idx → α :=
  fun y => x0 (ix3 j (y 1) (y 2))

theorem slabAt_ix {α : Type} (x0 : (⟨3, ![4, 1024, 512]⟩ : Shape).Idx → α) (j : Fin 4) (u : Fin 1) (n : Fin 1024) (d : Fin 512) :
    slabAt x0 j (ix3 u n d) = x0 (ix3 j n d) := rfl

end Cert.Mdn
-- ==== Proof.BodyValue.lean ====
/-
  What one grid point leaves in its three output blocks, entry by entry.

  The body's loop stores, at trip `k`, slab `k` of each output block, computed from slab `k` of the input block. Every
  stored piece is therefore a block of ONE function of the output block's index: at `(j, …)` the trip's payload of
  slab `j` of the input block (and of the whole weight and bias blocks), read at `(0, …)`. Since the pieces cover the
  block, the block read back is that function.
-/
import proofs.«141120_j24472723652814_2_alg».proof.Proof.FrameIdeal
import proofs.«141120_j24472723652814_2_alg».proof.Proof.LoopPieces
import proofs.«141120_j24472723652814_2_alg».proof.Proof.Slab
import Idealize.ShloMosaic.Lib.Pipeline.Value
import Idealize.ShloMosaic.Lib.ValueIdx

set_option maxRecDepth 16384

noncomputable section

namespace Cert.Mdn.BodyValue

open Cert.KernelIdeal Cert.KernelIdeal.Gen Cert.KernelIdeal.GenP Cert.Mdn.Body
open Idealize.ShloMosaic Idealize.ShloMosaic.TcCoe Idealize.SL.Sem Idealize.ShloMosaic.ValueIdx

variable {F : FTy → Type} [FloatOps F]

theorem hz2 : (![0, 0] : Fin 2 → Nat) = fun _ => 0 := funext fun a => by fin_cases a <;> rfl

/-- The body's load of the whole weight block. -/
abbrev loadW (arg2 : Memref sig .tc .vmem S512x32 .f32) (harg2 : arg2.IsWhole) (x1 : Vec F S512x32 .f32) : Vec F S512x32 .f32 :=
  View.readAt (Elt F) arg2.view (Rect.unit (s := S512x32) ![0, 0] S512x32.size inb_S512x32_S512x32_0_0).toLoadRect (harg2.unread x1)

/-- The body's load of the whole bias block. -/
abbrev loadB (arg3 : Memref sig .tc .vmem S1x32 .f32) (harg3 : arg3.IsWhole) (x2 : Vec F S1x32 .f32) : Vec F S1x32 .f32 :=
  View.readAt (Elt F) arg3.view (Rect.unit (s := S1x32) ![0, 0] S1x32.size inb_S1x32_S1x32_0_0).toLoadRect (harg3.unread x2)

/-- A whole-block load reads the block. -/
theorem loadW_eq (arg2 : Memref sig .tc .vmem S512x32 .f32) (harg2 : arg2.IsWhole) (x1 : Vec F S512x32 .f32) :
    loadW arg2 harg2 x1 = x1 := by
  simp only [loadW, View.readAt_eq_ld, harg2.read_unread, View.ld_unit_zero (S := S512x32) hz2]

theorem loadB_eq (arg3 : Memref sig .tc .vmem S1x32 .f32) (harg3 : arg3.IsWhole) (x2 : Vec F S1x32 .f32) :
    loadB arg3 harg3 x2 = x2 := by
  simp only [loadB, View.readAt_eq_ld, harg3.read_unread, View.ld_unit_zero (S := S1x32) hz2]

/-- The three lists of pieces the body's run ends with are the loop's, over the two whole-block loads. -/
theorem run_lists (c : Dev nD) (i : grid0.Coords) (arg1 : Memref sig .tc .vmem S4x1024x512 .f32) (harg1 : arg1.IsWhole) (arg2 : Memref sig .tc .vmem S512x32 .f32) (harg2 : arg2.IsWhole) (arg3 : Memref sig .tc .vmem S1x32 .f32) (harg3 : arg3.IsWhole) (arg4 : Memref sig .tc .vmem S4x1x32 .f32) (harg4 : arg4.IsWhole) (arg5 : Memref sig .tc .vmem S4x32x256 .f32) (harg5 : arg5.IsWhole) (arg6 : Memref sig .tc .vmem S4x32x256 .f32) (harg6 : arg6.IsWhole)
    (x0 : Vec F S4x1024x512 .f32) (x1 : Vec F S512x32 .f32) (x2 : Vec F S1x32 .f32) :
    ((kernelRun0_A c i arg1 harg1 arg2 harg2 arg3 harg3 arg4 harg4 arg5 harg5 arg6 harg6 x0 x1 x2).1, (kernelRun0_A c i arg1 harg1 arg2 harg2 arg3 harg3 arg4 harg4 arg5 harg5 arg6 harg6 x0 x1 x2).2.1, (kernelRun0_A c i arg1 harg1 arg2 harg2 arg3 harg3 arg4 harg4 arg5 harg5 arg6 harg6 x0 x1 x2).2.2.1)
      = pb_k0_t1 (F := F) Variants.none c none i arg1 harg1 arg2 harg2 arg3 harg3 arg4 harg4 arg5 harg5 arg6 harg6 (loadW arg2 harg2 x1) (loadB arg3 harg3 x2) (harg1.unread x0)
          arg4.view.junk arg5.view.junk arg6.view.junk (Scf.trips k0_t1_loop.lb k0_t1_loop.ub k0_t1_loop.st) := by
  unfold kernelRun0_A
  rfl

/-- So every piece of the run is a trip's store of its kind. -/
theorem run_allTrips (c : Dev nD) (i : grid0.Coords) (arg1 : Memref sig .tc .vmem S4x1024x512 .f32) (harg1 : arg1.IsWhole) (arg2 : Memref sig .tc .vmem S512x32 .f32) (harg2 : arg2.IsWhole) (arg3 : Memref sig .tc .vmem S1x32 .f32) (harg3 : arg3.IsWhole) (arg4 : Memref sig .tc .vmem S4x1x32 .f32) (harg4 : arg4.IsWhole) (arg5 : Memref sig .tc .vmem S4x32x256 .f32) (harg5 : arg5.IsWhole) (arg6 : Memref sig .tc .vmem S4x32x256 .f32) (harg6 : arg6.IsWhole)
    (x0 : Vec F S4x1024x512 .f32) (x1 : Vec F S512x32 .f32) (x2 : Vec F S1x32 .f32) :
    AllTrips arg1 (loadW arg2 harg2 x1) (loadB arg3 harg3 x2) (harg1.unread x0)
      ((kernelRun0_A c i arg1 harg1 arg2 harg2 arg3 harg3 arg4 harg4 arg5 harg5 arg6 harg6 x0 x1 x2).1, (kernelRun0_A c i arg1 harg1 arg2 harg2 arg3 harg3 arg4 harg4 arg5 harg5 arg6 harg6 x0 x1 x2).2.1, (kernelRun0_A c i arg1 harg1 arg2 harg2 arg3 harg3 arg4 harg4 arg5 harg5 arg6 harg6 x0 x1 x2).2.2.1) := by
  rw [run_lists]
  exact pb_allTrips ..

/-- The slab trip `k` loads from the input block is slab `k` of the block. -/
theorem tripSlab_eq (arg1 : Memref sig .tc .vmem S4x1024x512 .f32) (harg1 : arg1.IsWhole) (x0 : Vec F S4x1024x512 .f32)
    (k : Fin k0_t1_loop.trips) (hk : k.val < 4) :
    tripSlab arg1 (harg1.unread x0) k = slabAt x0 ⟨k.val, hk⟩ := by
  funext y
  have h0 : (y 0).val < 1 := (y 0).isLt
  simp only [tripSlab, View.readAt_eq_ld, harg1.read_unread]
  show x0 ((Rect.unit (s := S4x1024x512) (k0_off1 k) S1x1024x512.size (k0_off1_inb k)).emb y) = x0 (ix3 ⟨k.val, hk⟩ (y 1) (y 2))
  refine congrArg x0 (funext fun a => Fin.ext ?_)
  rw [Rect.emb_apply]
  match a with
  | ⟨0, _⟩ =>
    show (k0_off1 k) 0 + 1 * (y 0).val = k.val
    rw [k0_off1_eq]
    show k.val + 1 * (y 0).val = k.val
    omega
  | ⟨1, _⟩ =>
    show (k0_off1 k) 1 + 1 * (y 1).val = (y 1).val
    rw [k0_off1_eq]
    show 0 + 1 * (y 1).val = (y 1).val
    omega
  | ⟨2, _⟩ =>
    show (k0_off1 k) 2 + 1 * (y 2).val = (y 2).val
    rw [k0_off1_eq]
    show 0 + 1 * (y 2).val = (y 2).val
    omega

/-- The block of mean masses a point leaves: at `(j, 0, g)` the trip's masses of slab `j`, read at `(0, 0, g)`. -/
theorem outW_apply (c : Dev nD) (i : grid0.Coords) (arg1 : Memref sig .tc .vmem S4x1024x512 .f32) (harg1 : arg1.IsWhole) (arg2 : Memref sig .tc .vmem S512x32 .f32) (harg2 : arg2.IsWhole) (arg3 : Memref sig .tc .vmem S1x32 .f32) (harg3 : arg3.IsWhole) (arg4 : Memref sig .tc .vmem S4x1x32 .f32) (harg4 : arg4.IsWhole) (arg5 : Memref sig .tc .vmem S4x32x256 .f32) (harg5 : arg5.IsWhole) (arg6 : Memref sig .tc .vmem S4x32x256 .f32) (harg6 : arg6.IsWhole)
    (x0 : Vec F S4x1024x512 .f32) (x1 : Vec F S512x32 .f32) (x2 : Vec F S1x32 .f32) (j : Fin 4) (u : Fin 1) (g : Fin 32) :
    (out0_A_3 c i arg1 harg1 arg2 harg2 arg3 harg3 arg4 harg4 arg5 harg5 arg6 harg6 x0 x1 x2 : S4x1x32.Idx → Elt F .f32) (ix3 j u g)
      = k0_pay13 (k0_pay1 x1) (k0_pay2 x2) (slabAt x0 j) (ix3 (0 : Fin 1) u g) := by
  unfold out0_A_3
  rw [View.read_writes_eq_canon _ _ _ (cover0_A_3 c i arg1 harg1 arg2 harg2 arg3 harg3 arg4 harg4 arg5 harg5 arg6 harg6 x0 x1 x2)]
  refine (View.canon_apply_of_pieces (fun y : S4x1x32.Idx => k0_pay13 (k0_pay1 x1) (k0_pay2 x2) (slabAt x0 (y 0)) (ix3 (0 : Fin 1) (y 1) (y 2))) _ ?_ (ix3 j u g)
    (cover0_A_3 c i arg1 harg1 arg2 harg2 arg3 harg3 arg4 harg4 arg5 harg5 arg6 harg6 x0 x1 x2 (ix3 j u g))).trans rfl
  intro p hp x
  obtain ⟨k, rfl⟩ := (run_allTrips c i arg1 harg1 arg2 harg2 arg3 harg3 arg4 harg4 arg5 harg5 arg6 harg6 x0 x1 x2).1 p hp
  have hk : k.val < 4 := Nat.lt_of_lt_of_le k.isLt k0_t1_abs.2.1
  have h0 : (x 0).val < 1 := (x 0).isLt
  have e0 : (Rect.unit (s := S4x1x32) (k0_off2 k) S1x1x32.size (k0_off2_inb k)).emb x 0 = (⟨k.val, hk⟩ : Fin 4) :=
    Fin.ext (by
      rw [Rect.emb_apply]
      show (k0_off2 k) 0 + 1 * (x 0).val = k.val
      rw [k0_off2_eq]
      show k.val + 1 * (x 0).val = k.val
      omega)
  have e1 : ((Rect.unit (s := S4x1x32) (k0_off2 k) S1x1x32.size (k0_off2_inb k)).emb x 1).val = (x 1).val := by
    rw [Rect.emb_apply]
    show (k0_off2 k) 1 + 1 * (x 1).val = (x 1).val
    rw [k0_off2_eq]
    show 0 + 1 * (x 1).val = (x 1).val
    omega
  have e2 : ((Rect.unit (s := S4x1x32) (k0_off2 k) S1x1x32.size (k0_off2_inb k)).emb x 2).val = (x 2).val := by
    rw [Rect.emb_apply]
    show (k0_off2 k) 2 + 1 * (x 2).val = (x 2).val
    rw [k0_off2_eq]
    show 0 + 1 * (x 2).val = (x 2).val
    omega
  have ex : x = ix3 (0 : Fin 1) ((Rect.unit (s := S4x1x32) (k0_off2 k) S1x1x32.size (k0_off2_inb k)).emb x 1) ((Rect.unit (s := S4x1x32) (k0_off2 k) S1x1x32.size (k0_off2_inb k)).emb x 2) := by
    funext a
    apply Fin.ext
    match a with
    | ⟨0, _⟩ => show (x 0).val = 0; omega
    | ⟨1, _⟩ => exact e1.symm
    | ⟨2, _⟩ => exact e2.symm
  show k0_pay13 (k0_pay1 (loadW arg2 harg2 x1)) (k0_pay2 (loadB arg3 harg3 x2)) (tripSlab arg1 (harg1.unread x0) k) x
    = k0_pay13 (k0_pay1 x1) (k0_pay2 x2) (slabAt x0 ((Rect.unit (s := S4x1x32) (k0_off2 k) S1x1x32.size (k0_off2_inb k)).emb x 0)) (ix3 (0 : Fin 1) ((Rect.unit (s := S4x1x32) (k0_off2 k) S1x1x32.size (k0_off2_inb k)).emb x 1) ((Rect.unit (s := S4x1x32) (k0_off2 k) S1x1x32.size (k0_off2_inb k)).emb x 2))
  rw [loadW_eq, loadB_eq, tripSlab_eq arg1 harg1 x0 k hk, e0]
  exact congrArg (k0_pay13 (k0_pay1 x1) (k0_pay2 x2) (slabAt x0 ⟨k.val, hk⟩)) ex

/-- The block of locations a point leaves: at `(j, g, o)` the trip's locations of slab `j`, read at `(0, g, o)`. -/
theorem outL_apply (c : Dev nD) (i : grid0.Coords) (arg1 : Memref sig .tc .vmem S4x1024x512 .f32) (harg1 : arg1.IsWhole) (arg2 : Memref sig .tc .vmem S512x32 .f32) (harg2 : arg2.IsWhole) (arg3 : Memref sig .tc .vmem S1x32 .f32) (harg3 : arg3.IsWhole) (arg4 : Memref sig .tc .vmem S4x1x32 .f32) (harg4 : arg4.IsWhole) (arg5 : Memref sig .tc .vmem S4x32x256 .f32) (harg5 : arg5.IsWhole) (arg6 : Memref sig .tc .vmem S4x32x256 .f32) (harg6 : arg6.IsWhole)
    (x0 : Vec F S4x1024x512 .f32) (x1 : Vec F S512x32 .f32) (x2 : Vec F S1x32 .f32) (j : Fin 4) (g : Fin 32) (o : Fin 256) :
    (out0_A_4 c i arg1 harg1 arg2 harg2 arg3 harg3 arg4 harg4 arg5 harg5 arg6 harg6 x0 x1 x2 : S4x32x256.Idx → Elt F .f32) (ix3 j g o)
      = k0_pay3 (k0_pay11 (k0_pay1 x1) (k0_pay2 x2) (slabAt x0 j)) (ix3 (0 : Fin 1) g o) := by
  unfold out0_A_4
  rw [View.read_writes_eq_canon _ _ _ (cover0_A_4 c i arg1 harg1 arg2 harg2 arg3 harg3 arg4 harg4 arg5 harg5 arg6 harg6 x0 x1 x2)]
  refine (View.canon_apply_of_pieces (fun y : S4x32x256.Idx => k0_pay3 (k0_pay11 (k0_pay1 x1) (k0_pay2 x2) (slabAt x0 (y 0))) (ix3 (0 : Fin 1) (y 1) (y 2))) _ ?_ (ix3 j g o)
    (cover0_A_4 c i arg1 harg1 arg2 harg2 arg3 harg3 arg4 harg4 arg5 harg5 arg6 harg6 x0 x1 x2 (ix3 j g o))).trans rfl
  intro p hp x
  obtain ⟨k, rfl⟩ := (run_allTrips c i arg1 harg1 arg2 harg2 arg3 harg3 arg4 harg4 arg5 harg5 arg6 harg6 x0 x1 x2).2.1 p hp
  have hk : k.val < 4 := Nat.lt_of_lt_of_le k.isLt k0_t1_abs.2.1
  have h0 : (x 0).val < 1 := (x 0).isLt
  have e0 : (Rect.unit (s := S4x32x256) (k0_off3 k) S1x32x256.size (k0_off3_inb k)).emb x 0 = (⟨k.val, hk⟩ : Fin 4) :=
    Fin.ext (by
      rw [Rect.emb_apply]
      show (k0_off3 k) 0 + 1 * (x 0).val = k.val
      rw [k0_off3_eq]
      show k.val + 1 * (x 0).val = k.val
      omega)
  have e1 : ((Rect.unit (s := S4x32x256) (k0_off3 k) S1x32x256.size (k0_off3_inb k)).emb x 1).val = (x 1).val := by
    rw [Rect.emb_apply]
    show (k0_off3 k) 1 + 1 * (x 1).val = (x 1).val
    rw [k0_off3_eq]
    show 0 + 1 * (x 1).val = (x 1).val
    omega
  have e2 : ((Rect.unit (s := S4x32x256) (k0_off3 k) S1x32x256.size (k0_off3_inb k)).emb x 2).val = (x 2).val := by
    rw [Rect.emb_apply]
    show (k0_off3 k) 2 + 1 * (x 2).val = (x 2).val
    rw [k0_off3_eq]
    show 0 + 1 * (x 2).val = (x 2).val
    omega
  have ex : x = ix3 (0 : Fin 1) ((Rect.unit (s := S4x32x256) (k0_off3 k) S1x32x256.size (k0_off3_inb k)).emb x 1) ((Rect.unit (s := S4x32x256) (k0_off3 k) S1x32x256.size (k0_off3_inb k)).emb x 2) := by
    funext a
    apply Fin.ext
    match a with
    | ⟨0, _⟩ => show (x 0).val = 0; omega
    | ⟨1, _⟩ => exact e1.symm
    | ⟨2, _⟩ => exact e2.symm
  show k0_pay3 (k0_pay11 (k0_pay1 (loadW arg2 harg2 x1)) (k0_pay2 (loadB arg3 harg3 x2)) (tripSlab arg1 (harg1.unread x0) k)) x
    = k0_pay3 (k0_pay11 (k0_pay1 x1) (k0_pay2 x2) (slabAt x0 ((Rect.unit (s := S4x32x256) (k0_off3 k) S1x32x256.size (k0_off3_inb k)).emb x 0))) (ix3 (0 : Fin 1) ((Rect.unit (s := S4x32x256) (k0_off3 k) S1x32x256.size (k0_off3_inb k)).emb x 1) ((Rect.unit (s := S4x32x256) (k0_off3 k) S1x32x256.size (k0_off3_inb k)).emb x 2))
  rw [loadW_eq, loadB_eq, tripSlab_eq arg1 harg1 x0 k hk, e0]
  exact congrArg (k0_pay3 (k0_pay11 (k0_pay1 x1) (k0_pay2 x2) (slabAt x0 ⟨k.val, hk⟩))) ex

/-- The block of scales a point leaves: at `(j, g, o)` the trip's scales of slab `j`, read at `(0, g, o)`. -/
theorem outS_apply (c : Dev nD) (i : grid0.Coords) (arg1 : Memref sig .tc .vmem S4x1024x512 .f32) (harg1 : arg1.IsWhole) (arg2 : Memref sig .tc .vmem S512x32 .f32) (harg2 : arg2.IsWhole) (arg3 : Memref sig .tc .vmem S1x32 .f32) (harg3 : arg3.IsWhole) (arg4 : Memref sig .tc .vmem S4x1x32 .f32) (harg4 : arg4.IsWhole) (arg5 : Memref sig .tc .vmem S4x32x256 .f32) (harg5 : arg5.IsWhole) (arg6 : Memref sig .tc .vmem S4x32x256 .f32) (harg6 : arg6.IsWhole)
    (x0 : Vec F S4x1024x512 .f32) (x1 : Vec F S512x32 .f32) (x2 : Vec F S1x32 .f32) (j : Fin 4) (g : Fin 32) (o : Fin 256) :
    (out0_A_5 c i arg1 harg1 arg2 harg2 arg3 harg3 arg4 harg4 arg5 harg5 arg6 harg6 x0 x1 x2 : S4x32x256.Idx → Elt F .f32) (ix3 j g o)
      = k0_pay4 (k0_pay12 (k0_pay1 x1) (k0_pay2 x2) (slabAt x0 j)) (ix3 (0 : Fin 1) g o) := by
  unfold out0_A_5
  rw [View.read_writes_eq_canon _ _ _ (cover0_A_5 c i arg1 harg1 arg2 harg2 arg3 harg3 arg4 harg4 arg5 harg5 arg6 harg6 x0 x1 x2)]
  refine (View.canon_apply_of_pieces (fun y : S4x32x256.Idx => k0_pay4 (k0_pay12 (k0_pay1 x1) (k0_pay2 x2) (slabAt x0 (y 0))) (ix3 (0 : Fin 1) (y 1) (y 2))) _ ?_ (ix3 j g o)
    (cover0_A_5 c i arg1 harg1 arg2 harg2 arg3 harg3 arg4 harg4 arg5 harg5 arg6 harg6 x0 x1 x2 (ix3 j g o))).trans rfl
  intro p hp x
  obtain ⟨k, rfl⟩ := (run_allTrips c i arg1 harg1 arg2 harg2 arg3 harg3 arg4 harg4 arg5 harg5 arg6 harg6 x0 x1 x2).2.2 p hp
  have hk : k.val < 4 := Nat.lt_of_lt_of_le k.isLt k0_t1_abs.2.1
  have h0 : (x 0).val < 1 := (x 0).isLt
  have e0 : (Rect.unit (s := S4x32x256) (k0_off3 k) S1x32x256.size (k0_off3_inb k)).emb x 0 = (⟨k.val, hk⟩ : Fin 4) :=
    Fin.ext (by
      rw [Rect.emb_apply]
      show (k0_off3 k) 0 + 1 * (x 0).val = k.val
      rw [k0_off3_eq]
      show k.val + 1 * (x 0).val = k.val
      omega)
  have e1 : ((Rect.unit (s := S4x32x256) (k0_off3 k) S1x32x256.size (k0_off3_inb k)).emb x 1).val = (x 1).val := by
    rw [Rect.emb_apply]
    show (k0_off3 k) 1 + 1 * (x 1).val = (x 1).val
    rw [k0_off3_eq]
    show 0 + 1 * (x 1).val = (x 1).val
    omega
  have e2 : ((Rect.unit (s := S4x32x256) (k0_off3 k) S1x32x256.size (k0_off3_inb k)).emb x 2).val = (x 2).val := by
    rw [Rect.emb_apply]
    show (k0_off3 k) 2 + 1 * (x 2).val = (x 2).val
    rw [k0_off3_eq]
    show 0 + 1 * (x 2).val = (x 2).val
    omega
  have ex : x = ix3 (0 : Fin 1) ((Rect.unit (s := S4x32x256) (k0_off3 k) S1x32x256.size (k0_off3_inb k)).emb x 1) ((Rect.unit (s := S4x32x256) (k0_off3 k) S1x32x256.size (k0_off3_inb k)).emb x 2) := by
    funext a
    apply Fin.ext
    match a with
    | ⟨0, _⟩ => show (x 0).val = 0; omega
    | ⟨1, _⟩ => exact e1.symm
    | ⟨2, _⟩ => exact e2.symm
  show k0_pay4 (k0_pay12 (k0_pay1 (loadW arg2 harg2 x1)) (k0_pay2 (loadB arg3 harg3 x2)) (tripSlab arg1 (harg1.unread x0) k)) x
    = k0_pay4 (k0_pay12 (k0_pay1 x1) (k0_pay2 x2) (slabAt x0 ((Rect.unit (s := S4x32x256) (k0_off3 k) S1x32x256.size (k0_off3_inb k)).emb x 0))) (ix3 (0 : Fin 1) ((Rect.unit (s := S4x32x256) (k0_off3 k) S1x32x256.size (k0_off3_inb k)).emb x 1) ((Rect.unit (s := S4x32x256) (k0_off3 k) S1x32x256.size (k0_off3_inb k)).emb x 2))
  rw [loadW_eq, loadB_eq, tripSlab_eq arg1 harg1 x0 k hk, e0]
  exact congrArg (k0_pay4 (k0_pay12 (k0_pay1 x1) (k0_pay2 x2) (slabAt x0 ⟨k.val, hk⟩))) ex

end Cert.Mdn.BodyValue

end
-- ==== Proof.Blocks.lean ====
/-
  The kernel's three inputs as the region finds them, block by block.

  The pipelined region reads the input array in eight blocks of four batch members: at grid point `t` the block's
  entry `(j, n, d)` is the array's entry `(4t + j, n, d)`. Its second operand is the weight matrix transposed on the
  host, one block for the whole array, so the block's entry `(d, g)` is the weight matrix's entry `(g, d)`; its
  third is the bias reshaped to a row, so the block's entry `(0, g)` is the bias's entry `g`.
-/
import proofs.«141120_j24472723652814_2_alg».proof.Proof.Gen.KernelIdeal.Frame.Runs
import Idealize.ShloMosaic.Lib.Pipeline.Value
import Idealize.ShloMosaic.Lib.ValueIdx
import Idealize.ShloMosaic.Lib.StableHlo.Run

set_option maxRecDepth 16384

noncomputable section

namespace Cert.Mdn.Blocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The printed index maps over the grid: the input window's block index is the grid point on the batch axis and
    zero elsewhere; the two small operands stay at block zero. -/
theorem idx_in : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The region finds the weight matrix transposed. -/
theorem V_weights (c : Dev nD) :
    (V m c main_v0 : S512x32.Idx → Elt F .f32)
      = transpose S512x32 [1, 0] (m ((c : Thread nD τ).loc main_arg1) : S32x512.Idx → Elt F .f32) transposes_S32x512_S512x32_1_0 := by
  show StableHlo.after hostOps0 (fun b => m (c, b)) (Proc.devRef .tc main_v0) = _
  after_results

/-- The region finds the bias as a row. -/
theorem V_bias (c : Dev nD) :
    (V m c main_v1 : S1x32.Idx → Elt F .f32)
      = shapeCast S1x32 (m ((c : Thread nD τ).loc main_arg2) : S32.Idx → Elt F .f32) shapeCasts_S32_S1x32 := by
  show StableHlo.after hostOps0 (fun b => m (c, b)) (Proc.devRef .tc main_v1) = _
  after_results
  rfl

/-- The input block at point `t`: entry `x` is the array's entry `k` with `k 0 = 4t + x 0` and the other coordinates kept. -/
theorem iblk0_apply (c : Dev nD) (t : Fin cfg0.N) (x : S4x1024x512.Idx) (k : S32x1024x512.Idx)
    (hk0 : (k 0).val = 4 * t.val + (x 0).val) (hk1 : (k 1).val = (x 1).val) (hk2 : (k 2).val = (x 2).val) :
    (iblk m c 0 t : Vec F S4x1024x512 .f32) x = (m ((c : Thread nD τ).loc main_arg0) : S32x1024x512.Idx → Elt F .f32) k := by
  obtain ⟨e0, e1, e2, -⟩ := idx_in t
  unfold iblk
  rw [View.read_apply]
  show V m c main_arg0 _ = _
  rw [V_main_arg0]
  refine congrArg (m ((c : Thread nD τ).loc main_arg0) : S32x1024x512.Idx → Elt F .f32) (funext fun a => Fin.ext ?_)
  match a with
  | ⟨0, _⟩ => show win0_0.index t 0 * 4 + 1 * (x 0).val = (k 0).val; rw [e0, hk0]; omega
  | ⟨1, _⟩ => show win0_0.index t 1 * 1024 + 1 * (x 1).val = (k 1).val; rw [e1, hk1]; omega
  | ⟨2, _⟩ => show win0_0.index t 2 * 512 + 1 * (x 2).val = (k 2).val; rw [e2, hk2]; omega

/-- The weight block at any point: entry `(d, g)` is the weight matrix's entry `(g, d)`. -/
theorem iblk1_apply (c : Dev nD) (t : Fin cfg0.N) (d : Fin 512) (g : Fin 32) :
    (iblk m c 1 t : Vec F S512x32 .f32) (ix2 d g) = (m ((c : Thread nD τ).loc main_arg1) : S32x512.Idx → Elt F .f32) (ix2 g d) := by
  obtain ⟨-, -, -, e0, e1, -⟩ := idx_in t
  unfold iblk
  rw [View.read_apply]
  show V m c main_v0 _ = _
  rw [V_weights]
  refine transpose_apply _ _ _ _ _ fun b => ?_
  match b with
  | ⟨0, _⟩ => show (d : ℕ) = win0_1.index t 0 * 512 + 1 * (d : ℕ); rw [e0]; omega
  | ⟨1, _⟩ => show (g : ℕ) = win0_1.index t 1 * 32 + 1 * (g : ℕ); rw [e1]; omega

/-- The bias block at any point: entry `(0, g)` is the bias's entry `g`. -/
theorem iblk2_apply (c : Dev nD) (t : Fin cfg0.N) (u : Fin 1) (g : Fin 32) :
    (iblk m c 2 t : Vec F S1x32 .f32) (ix2 u g) = (m ((c : Thread nD τ).loc main_arg2) : S32.Idx → Elt F .f32) (ix1 g) := by
  obtain ⟨-, -, -, -, -, e0, e1⟩ := idx_in t
  unfold iblk
  rw [View.read_apply]
  show V m c main_v1 _ = _
  rw [V_bias]
  refine shapeCast_apply _ _ _ (ix1 g) ?_
  rw [Shape.rowMajor_val_two, Shape.rowMajor_val_one]
  show (g : ℕ) = (win0_2.index t 0 * 1 + 1 * (u : ℕ)) * 32 + (win0_2.index t 1 * 32 + 1 * (g : ℕ))
  rw [e0, e1]
  have := u.isLt
  omega

end Cert.Mdn.Blocks

end
-- ==== Proof.Spec.lean ====
/-
  The mixture-density reduction as one function of the argument arrays, on the extended reals.

  For one batch member the input is a slab `s : 1024 × 512` (1024 samples of 512 features), a weight matrix
  `w : 32 × 512` and a bias `β : 32`. Sample `n` has logits `ℓ g = Σ_d s n d · w g d + β g`; its mixture weights are the
  softmax of that row, `π n g = exp (ℓ g − M) / Σ_g' exp (ℓ g' − M)` with `M = max (−∞, max_g ℓ g)`. With the total mass
  `D g = Σ_n π n g`, the first half of the features `μ n o = s n o` and the second half `σ n o = s n (256 + o)`, the
  three results are
    weight g   = D g · 2⁻¹⁰,
    loc g o    = (Σ_n π n g · μ n o) / D g,
    scale g o  = sqrt (max ((Σ_n π n g · (μ n o² + σ n o²)) / D g − (loc g o)², 0)).
  Every float literal is kept as its f32 word; the quotient is the extended reals' total division `Ideal.div`.
-/
import Idealize.ShloMosaic.PureOps.Ideal
import Idealize.ShloMosaic.PureOps.Ideal.Laws
import Idealize.ShloMosaic.Lib.ValueIdx

noncomputable section

namespace Cert.Mdn

open Idealize.ShloMosaic Idealize.ShloMosaic.ValueIdx

/-- One sample's logits: the row's inner product with each weight row, plus the bias. -/
def logit (xrow : Fin 512 → EReal) (w : Fin 32 → Fin 512 → EReal) (β : Fin 32 → EReal) (g : Fin 32) : EReal :=
  (∑ d : Fin 512, xrow d * w g d) + β g

/-- The largest of a row of 32 logits, taken from −∞ (the f32 word `0xFF800000`). -/
def rowMax (l : Fin 32 → EReal) : EReal :=
  max (Ideal.ofBits .f32 0xFF800000#32) ((Finset.univ : Finset (Fin 32)).fold max (Ideal.ofBits .f32 0xFF800000#32) l)

/-- The shifted exponential of one logit. -/
def rowExp (l : Fin 32 → EReal) (g : Fin 32) : EReal := Ideal.exp (l g - rowMax l)

/-- Softmax of a row of 32 logits. -/
def softmax (l : Fin 32 → EReal) (g : Fin 32) : EReal := Ideal.div (rowExp l g) (∑ g' : Fin 32, rowExp l g')

/-- Sample `n`'s mixture weight for gaussian `g`. -/
def mix (s : Fin 1024 → Fin 512 → EReal) (w : Fin 32 → Fin 512 → EReal) (β : Fin 32 → EReal) (n : Fin 1024) (g : Fin 32) : EReal :=
  softmax (logit (s n) w β) g

/-- Gaussian `g`'s total mass over the 1024 samples. -/
def mass (s : Fin 1024 → Fin 512 → EReal) (w : Fin 32 → Fin 512 → EReal) (β : Fin 32 → EReal) (g : Fin 32) : EReal :=
  ∑ n : Fin 1024, mix s w β n g

/-- The first half of a sample's features. -/
def mu (s : Fin 1024 → Fin 512 → EReal) (n : Fin 1024) (o : Fin 256) : EReal := s n ⟨o.val, by omega⟩

/-- The second half of a sample's features. -/
def sigma (s : Fin 1024 → Fin 512 → EReal) (n : Fin 1024) (o : Fin 256) : EReal := s n ⟨256 + o.val, by omega⟩

/-- The mean mass: the total mass times 2⁻¹⁰ (the f32 word `0x3A800000`). -/
def weight (s : Fin 1024 → Fin 512 → EReal) (w : Fin 32 → Fin 512 → EReal) (β : Fin 32 → EReal) (g : Fin 32) : EReal :=
  mass s w β g * Ideal.ofBits .f32 0x3A800000#32

/-- The mass-weighted mean of the first half. -/
def loc (s : Fin 1024 → Fin 512 → EReal) (w : Fin 32 → Fin 512 → EReal) (β : Fin 32 → EReal) (g : Fin 32) (o : Fin 256) : EReal :=
  Ideal.div (∑ n : Fin 1024, mix s w β n g * mu s n o) (mass s w β g)

/-- The mass-weighted mean of `μ² + σ²`. -/
def second (s : Fin 1024 → Fin 512 → EReal) (w : Fin 32 → Fin 512 → EReal) (β : Fin 32 → EReal) (g : Fin 32) (o : Fin 256) : EReal :=
  Ideal.div (∑ n : Fin 1024, mix s w β n g * (mu s n o * mu s n o + sigma s n o * sigma s n o)) (mass s w β g)

/-- The square root of the variance clamped at zero (the f32 word `0x00000000`). -/
def scale (s : Fin 1024 → Fin 512 → EReal) (w : Fin 32 → Fin 512 → EReal) (β : Fin 32 → EReal) (g : Fin 32) (o : Fin 256) : EReal :=
  Ideal.sqrt (max (second s w β g o - loc s w β g o * loc s w β g o) (Ideal.ofBits .f32 0x00000000#32))

/-! ## Over the whole argument arrays -/

/-- Batch member `b`'s slab of the input array. -/
def slabOf (x : (⟨3, ![32, 1024, 512]⟩ : Shape).Idx → EReal) (b : Fin 32) : Fin 1024 → Fin 512 → EReal :=
  fun n d => x (ix3 b n d)

/-- The weight matrix by its two coordinates. -/
def wOf (w : (⟨2, ![32, 512]⟩ : Shape).Idx → EReal) : Fin 32 → Fin 512 → EReal := fun g d => w (ix2 g d)

/-- The bias by its coordinate. -/
def bOf (β : (⟨1, ![32]⟩ : Shape).Idx → EReal) : Fin 32 → EReal := fun g => β (ix1 g)

/-- The first result: the mean masses, `[32, 32]`. -/
def weights (x : (⟨3, ![32, 1024, 512]⟩ : Shape).Idx → EReal) (w : (⟨2, ![32, 512]⟩ : Shape).Idx → EReal)
    (β : (⟨1, ![32]⟩ : Shape).Idx → EReal) : (⟨2, ![32, 32]⟩ : Shape).Idx → EReal :=
  fun i => weight (slabOf x (i 0)) (wOf w) (bOf β) (i 1)

/-- The second result: the scales, `[32, 32, 256]`. -/
def scales (x : (⟨3, ![32, 1024, 512]⟩ : Shape).Idx → EReal) (w : (⟨2, ![32, 512]⟩ : Shape).Idx → EReal)
    (β : (⟨1, ![32]⟩ : Shape).Idx → EReal) : (⟨3, ![32, 32, 256]⟩ : Shape).Idx → EReal :=
  fun i => scale (slabOf x (i 0)) (wOf w) (bOf β) (i 1) (i 2)

/-- The third result: the locations, `[32, 32, 256]`. -/
def locs (x : (⟨3, ![32, 1024, 512]⟩ : Shape).Idx → EReal) (w : (⟨2, ![32, 512]⟩ : Shape).Idx → EReal)
    (β : (⟨1, ![32]⟩ : Shape).Idx → EReal) : (⟨3, ![32, 32, 256]⟩ : Shape).Idx → EReal :=
  fun i => loc (slabOf x (i 0)) (wOf w) (bOf β) (i 1) (i 2)

theorem weights_ix (x : (⟨3, ![32, 1024, 512]⟩ : Shape).Idx → EReal) (w : (⟨2, ![32, 512]⟩ : Shape).Idx → EReal)
    (β : (⟨1, ![32]⟩ : Shape).Idx → EReal) (b g : Fin 32) :
    weights x w β (ix2 b g) = weight (slabOf x b) (wOf w) (bOf β) g := rfl

theorem scales_ix (x : (⟨3, ![32, 1024, 512]⟩ : Shape).Idx → EReal) (w : (⟨2, ![32, 512]⟩ : Shape).Idx → EReal)
    (β : (⟨1, ![32]⟩ : Shape).Idx → EReal) (b g : Fin 32) (o : Fin 256) :
    scales x w β (ix3 b g o) = scale (slabOf x b) (wOf w) (bOf β) g o := rfl

theorem locs_ix (x : (⟨3, ![32, 1024, 512]⟩ : Shape).Idx → EReal) (w : (⟨2, ![32, 512]⟩ : Shape).Idx → EReal)
    (β : (⟨1, ![32]⟩ : Shape).Idx → EReal) (b g : Fin 32) (o : Fin 256) :
    locs x w β (ix3 b g o) = loc (slabOf x b) (wOf w) (bOf β) g o := rfl

/-! ## The kernel body's three loads, by coordinates

One trip of the kernel body works on one slab `[1, 1024, 512]`, on the transposed weight matrix `[512, 32]` and on
the bias as a row `[1, 32]`. -/

/-- A `[1, 1024, 512]` slab by its two varying coordinates. -/
def slab1 (v : (⟨3, ![1, 1024, 512]⟩ : Shape).Idx → EReal) : Fin 1024 → Fin 512 → EReal := fun n d => v (ix3 (0 : Fin 1) n d)

/-- A transposed weight matrix `[512, 32]` read as `w g d`. -/
def wT (v : (⟨2, ![512, 32]⟩ : Shape).Idx → EReal) : Fin 32 → Fin 512 → EReal := fun g d => v (ix2 d g)

/-- A bias row `[1, 32]` by its varying coordinate. -/
def bRow (v : (⟨2, ![1, 32]⟩ : Shape).Idx → EReal) : Fin 32 → EReal := fun g => v (ix2 (0 : Fin 1) g)

/-! ## The two literals of the mean -/

/-- The f32 word `0x3A800000` is 2⁻¹⁰. -/
theorem ofBits_inv1024 : Ideal.ofBits .f32 0x3A800000#32 = ((1 / 1024 : ℝ) : EReal) := by
  simp [Ideal.ofBits, Ideal.ieee, -EReal.coe_mul]; norm_num

/-- The f32 word `0x44800000` is 1024. -/
theorem ofBits_1024 : Ideal.ofBits .f32 0x44800000#32 = ((1024 : ℝ) : EReal) := by
  simp [Ideal.ofBits, Ideal.ieee, -EReal.coe_mul]; norm_num

/-- Dividing a sum taken from zero by 1024 is multiplying the sum by 2⁻¹⁰, at the infinities too. -/
theorem div_1024_eq (D : EReal) :
    Ideal.div (Ideal.ofBits .f32 0x00000000#32 + D) (Ideal.ofBits .f32 0x44800000#32) = D * Ideal.ofBits .f32 0x3A800000#32 := by
  rw [Ideal.ofBits_zero_f32, zero_add, ofBits_1024, ofBits_inv1024, Ideal.div_coe (by norm_num : (1024 : ℝ) ≠ 0)]

end Cert.Mdn

end
-- ==== Proof.LibKeepdims.lean ====
/-
  Two layout operations read at an index, for a column kept as a unit axis (what `sum(…, keepdims=True)` produces):
  an `[a]` array viewed as an `[a, 1]` column, and an `[a, 1]` column repeated along `b` columns. Both are general
  in the extents.
-/
import Idealize.ShloMosaic.Lib.ValueLayout
import Idealize.ShloMosaic.Lib.Pipeline.Value

namespace Idealize.ShloMosaic.ValueIdx

variable {α : Type}

/-- An `[a]` array cast to `[a, 1]` reads, at `(i, u)`, the operand at `i`, whatever the unit coordinate `u`:
    the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.PaySoftmax.lean ====
/-
  The body's mixture weights at an index.

  One trip of the body holds a slab `[1, 1024, 512]`, the transposed weight matrix `[512, 32]` and the bias row
  `[1, 32]`. Its first pure value is the array of mixture weights `π [1024, 32]`: the logits (a contraction over the
  512 features into a zero array, plus the bias row repeated down the rows), the row maxima taken from −∞, the shifted
  exponentials, their row sums kept as a column, and the quotient. This module reads each of these arrays at an
  index given by coordinates and identifies it with the specification's function of the same name; it ends with the
  column sums of `π` over the 1024 rows, the masses.
-/
import proofs.«141120_j24472723652814_2_alg».proof.Proof.Gen.KernelIdeal.Skeleton
import proofs.«141120_j24472723652814_2_alg».proof.Proof.Spec
import proofs.«141120_j24472723652814_2_alg».proof.Proof.LibKeepdims
import Idealize.ShloMosaic.Lib.ValueLayout
import Idealize.ShloMosaic.Lib.Pipeline.Value
import Idealize.ShloMosaic.PureOps.Ideal.Laws

noncomputable section

namespace Cert.Mdn.Pay

open Idealize.ShloMosaic Idealize.ShloMosaic.ValueIdx Cert.KernelIdeal Cert.KernelIdeal.Gen

/-! ## The contraction over the features -/

/-- The dimension numbers of the logits' contraction: rows of the left operand against columns of the right. -/
abbrev D1 : DotDims S1024x512 S512x32 S1024x32 := dot_S1024x512_S512x32_S1024x32_1_0_0_1_n_n

theorem d1_lhs0 (i : S1024x32.Idx) (q : D1.contr.Idx) : (D1.lhsIdx i q 0).val = (i 0).val := by
  unfold DotDims.lhsIdx
  rw [dif_neg (show ¬(0 : Fin S1024x512.rank) ∈ D1.lhsBatch by decide),
    dif_pos (show (0 : Fin S1024x512.rank) ∈ D1.lhsNonContracting by decide)]
  rfl

theorem d1_lhs1 (i : S1024x32.Idx) (q : D1.contr.Idx) : (D1.lhsIdx i q 1).val = (q ⟨0, by decide⟩).val :=
  D1.lhsIdx_val_of_single rfl i q

theorem d1_rhs0 (i : S1024x32.Idx) (q : D1.contr.Idx) : (D1.rhsIdx i q 0).val = (q ⟨0, by decide⟩).val :=
  D1.rhsIdx_val_of_single rfl i q

theorem d1_rhs1 (i : S1024x32.Idx) (q : D1.contr.Idx) : (D1.rhsIdx i q 1).val = (i 1).val := by
  unfold DotDims.rhsIdx
  rw [dif_neg (show ¬(1 : Fin S512x32.rank) ∈ D1.rhsBatch by decide),
    dif_pos (show (1 : Fin S512x32.rank) ∈ D1.rhsNonContracting by decide)]
  rfl

/-- The contraction into a zero array, at `(n, g)`: the sum over the features `d` of `lhs (n, d) · rhs (d, g)`. -/
theorem matmul1_apply (lhs : FVec Ideal S1024x512 .bf16) (rhs : FVec Ideal S512x32 .bf16) (n : Fin 1024) (g : Fin 32) :
    matmul D1 none lhs rhs (constant (F := Ideal) S1024x32 .f32 0x00000000#32) (ix2 n g)
      = ∑ d : Fin 512, lhs (ix2 n d) * rhs (ix2 d g) := by
  refine (Ideal.matmul_constant_zero_apply D1 none lhs rhs (ix2 n g)).trans ?_
  rw [← Equiv.sum_comp (contrEquiv1 D1 512 rfl rfl).symm]
  refine Finset.sum_congr rfl fun k _ => ?_
  have hk := contrEquiv1_symm_val D1 512 rfl rfl k
  have el : D1.lhsIdx (ix2 n g) ((contrEquiv1 D1 512 rfl rfl).symm k) = ix2 n k := funext fun a => Fin.ext (by
    match a with
    | ⟨0, _⟩ => exact d1_lhs0 _ _
    | ⟨1, _⟩ => exact (d1_lhs1 _ _).trans hk)
  have er : D1.rhsIdx (ix2 n g) ((contrEquiv1 D1 512 rfl rfl).symm k) = ix2 k g := funext fun a => Fin.ext (by
    match a with
    | ⟨0, _⟩ => exact (d1_rhs0 _ _).trans hk
    | ⟨1, _⟩ => exact d1_rhs1 _ _)
  rw [el, er]

/-! ## The reductions along one axis of a `[1024, 32]` array -/

/-- The index a lane reduction reads: row `n`, lane `g`. -/
theorem lift_lane (n : Fin 1024) (g : Fin 32) : reduces_S1024x32_S1024.lift (ix1 n) g = ix2 n g :=
  funext fun a => Fin.ext (by
    match a with
    | ⟨0, _⟩ => rfl
    | ⟨1, _⟩ => rfl)

/-- The index a row reduction reads: row `n`, lane `g`. -/
theorem lift_row (g : Fin 32) (n : Fin 1024) : reduces_S1024x32_S32.lift (ix1 g) n = ix2 n g :=
  funext fun a => Fin.ext (by
    match a with
    | ⟨0, _⟩ => rfl
    | ⟨1, _⟩ => rfl)

/-- The maximum over the lanes, from the word `acc`, at row `n`: the fold of `max` over the 32 lanes of that row. -/
theorem lanemax_apply (src : FVec Ideal S1024x32 .f32) (hφ : FKind.Formats .f32)
    (hacc : (0xFF800000#32 : BitVec 32) = FKind.maximumf.neutral .f32 hφ) (n : Fin 1024) :
    multiReduction (F := Ideal) .maximumf [1] S1024 src 0xFF800000#32 reduces_S1024x32_S1024 hφ hacc (ix1 n)
      = (Finset.univ : Finset (Fin 32)).fold max (Ideal.ofBits .f32 0xFF800000#32) (fun g => src (ix2 n g)) := by
  refine (Ideal.multiReduction_maximumf_single src _ reduces_S1024x32_S1024 hφ hacc (ix1 n)).trans ?_
  have e : (src ∘ reduces_S1024x32_S1024.lift (ix1 n)) = fun g : Fin 32 => src (ix2 n g) :=
    funext fun g => congrArg src (lift_lane n g)
  rw [e]
  rfl

/-- The sum over the lanes, from zero, at row `n`. -/
theorem lanesum_apply (src : FVec Ideal S1024x32 .f32) (hφ : FKind.Formats .f32)
    (hacc : (0x00000000#32 : BitVec 32) = FKind.add.neutral .f32 hφ) (n : Fin 1024) :
    multiReduction (F := Ideal) .add [1] S1024 src 0x00000000#32 reduces_S1024x32_S1024 hφ hacc (ix1 n)
      = ∑ g : Fin 32, src (ix2 n g) :=
  (Ideal.multiReduction_add_single src _ reduces_S1024x32_S1024 hφ hacc (ix1 n)).trans
    (Finset.sum_congr rfl fun g _ => congrArg src (lift_lane n g))

/-- The sum over the rows, from zero, at lane `g`. -/
theorem rowsum_apply (src : FVec Ideal S1024x32 .f32) (hφ : FKind.Formats .f32)
    (hacc : (0x00000000#32 : BitVec 32) = FKind.add.neutral .f32 hφ) (g : Fin 32) :
    multiReduction (F := Ideal) .add [0] S32 src 0x00000000#32 reduces_S1024x32_S32 hφ hacc (ix1 g)
      = ∑ n : Fin 1024, src (ix2 n g) :=
  (Ideal.multiReduction_add_single src _ reduces_S1024x32_S32 hφ hacc (ix1 g)).trans
    (Finset.sum_congr rfl fun n _ => congrArg src (lift_row g n))

/-! ## The slab, the logits, the row maxima, the exponentials -/

/-- The slab with its unit axis dropped reads the slab. -/
theorem pay5_apply (v7 : Vec Ideal S1x1024x512 .f32) (n : Fin 1024) (d : Fin 512) :
    k0_pay5 (F := Ideal) v7 (ix2 n d) = slab1 v7 n d :=
  shapeCast_1ab_ab_apply v7 shapeCasts_S1x1024x512_S1024x512 n d

/-- The body's logits: the contraction plus the bias row repeated down the rows. -/
def logits (v2 : FVec Ideal S512x32 .bf16) (v4 : FVec Ideal S1x32 .f32) (v7 : Vec Ideal S1x1024x512 .f32) :
    FVec Ideal S1024x32 .f32 :=
  addf (matmul D1 none (truncf .bf16 (k0_pay5 (F := Ideal) v7) bitsLt_bf16_f32) v2 (constant (F := Ideal) S1024x32 .f32 0x00000000#32))
    (broadcastTo S1024x32 v4 broadcasts_S1x32_S1024x32)

theorem logits_apply (v2 : FVec Ideal S512x32 .bf16) (v4 : FVec Ideal S1x32 .f32) (v7 : Vec Ideal S1x1024x512 .f32)
    (n : Fin 1024) (g : Fin 32) :
    logits v2 v4 v7 (ix2 n g) = logit (slab1 v7 n) (wT v2) (bRow v4) g := by
  show matmul D1 none (truncf .bf16 (k0_pay5 (F := Ideal) v7) bitsLt_bf16_f32) v2 (constant (F := Ideal) S1024x32 .f32 0x00000000#32) (ix2 n g)
      + broadcastTo S1024x32 v4 broadcasts_S1x32_S1024x32 (ix2 n g) = _
  rw [matmul1_apply, broadcastTo_1b_ab_apply v4 broadcasts_S1x32_S1024x32 n g]
  refine congrArg (· + v4 (ix2 (0 : Fin 1) g)) (Finset.sum_congr rfl fun d _ => ?_)
  exact congrArg (· * v2 (ix2 d g)) (pay5_apply v7 n d)

/-- The body's row maxima: the lane maximum from −∞, then once more against −∞. -/
def rowmaxes (v2 : FVec Ideal S512x32 .bf16) (v4 : FVec Ideal S1x32 .f32) (v7 : Vec Ideal S1x1024x512 .f32) :
    FVec Ideal S1024 .f32 :=
  maximumf (broadcast S1024 (Scalar.ofBits (F := Ideal) .f32 0xFF800000#32))
    (multiReduction (F := Ideal) .maximumf [1] S1024 (logits v2 v4 v7) 0xFF800000#32 reduces_S1024x32_S1024 (.inl rfl) rfl)

theorem rowmaxes_apply (v2 : FVec Ideal S512x32 .bf16) (v4 : FVec Ideal S1x32 .f32) (v7 : Vec Ideal S1x1024x512 .f32)
    (n : Fin 1024) :
    rowmaxes v2 v4 v7 (ix1 n) = rowMax (logit (slab1 v7 n) (wT v2) (bRow v4)) := by
  show max (Ideal.ofBits .f32 0xFF800000#32)
      (multiReduction (F := Ideal) .maximumf [1] S1024 (logits v2 v4 v7) 0xFF800000#32 reduces_S1024x32_S1024 (.inl rfl) rfl (ix1 n)) = _
  refine congrArg (max (Ideal.ofBits .f32 0xFF800000#32)) ?_
  refine (lanemax_apply (logits v2 v4 v7) _ _ n).trans ?_
  exact congrArg ((Finset.univ : Finset (Fin 32)).fold max (Ideal.ofBits .f32 0xFF800000#32))
    (funext fun g => logits_apply v2 v4 v7 n g)

/-- The body's shifted exponentials: the logits minus the row maxima (kept as a column, repeated along the lanes). -/
def exps (v2 : FVec Ideal S512x32 .bf16) (v4 : FVec Ideal S1x32 .f32) (v7 : Vec Ideal S1x1024x512 .f32) :
    FVec Ideal S1024x32 .f32 :=
  exp (subf (logits v2 v4 v7)
    (broadcastTo S1024x32 (shapeCast S1024x1 (rowmaxes v2 v4 v7) shapeCasts_S1024_S1024x1) broadcasts_S1024x1_S1024x32))

theorem exps_apply (v2 : FVec Ideal S512x32 .bf16) (v4 : FVec Ideal S1x32 .f32) (v7 : Vec Ideal S1x1024x512 .f32)
    (n : Fin 1024) (g : Fin 32) :
    exps v2 v4 v7 (ix2 n g) = rowExp (logit (slab1 v7 n) (wT v2) (bRow v4)) g := by
  show Ideal.exp (logits v2 v4 v7 (ix2 n g)
      - broadcastTo S1024x32 (shapeCast S1024x1 (rowmaxes v2 v4 v7) shapeCasts_S1024_S1024x1) broadcasts_S1024x1_S1024x32 (ix2 n g)) = _
  rw [broadcastTo_a1_ab_apply _ broadcasts_S1024x1_S1024x32 n g,
    shapeCast_a_a1_apply (rowmaxes v2 v4 v7) shapeCasts_S1024_S1024x1 n (0 : Fin 1), logits_apply, rowmaxes_apply]
  rfl

/-! ## The mixture weights and the masses -/

/-- The body's mixture weights are the exponentials over their row sums (kept as a column, repeated along the lanes). -/
theorem pay6_eq (v2 : FVec Ideal S512x32 .bf16) (v4 : FVec Ideal S1x32 .f32) (v7 : Vec Ideal S1x1024x512 .f32) :
    k0_pay6 (F := Ideal) v2 v4 v7 = divf (exps v2 v4 v7)
      (broadcastTo S1024x32 (shapeCast S1024x1
        (multiReduction (F := Ideal) .add [1] S1024 (exps v2 v4 v7) 0x00000000#32 reduces_S1024x32_S1024 (.inl rfl) rfl)
        shapeCasts_S1024_S1024x1) broadcasts_S1024x1_S1024x32) := rfl

/-- The body's mixture weight at `(n, g)` is the specification's. -/
theorem pay6_apply (v2 : FVec Ideal S512x32 .bf16) (v4 : FVec Ideal S1x32 .f32) (v7 : Vec Ideal S1x1024x512 .f32)
    (n : Fin 1024) (g : Fin 32) :
    k0_pay6 (F := Ideal) v2 v4 v7 (ix2 n g) = mix (slab1 v7) (wT v2) (bRow v4) n g := by
  rw [pay6_eq]
  show Ideal.div (exps v2 v4 v7 (ix2 n g))
      (broadcastTo S1024x32 (shapeCast S1024x1
        (multiReduction (F := Ideal) .add [1] S1024 (exps v2 v4 v7) 0x00000000#32 reduces_S1024x32_S1024 (.inl rfl) rfl)
        shapeCasts_S1024_S1024x1) broadcasts_S1024x1_S1024x32 (ix2 n g)) = _
  rw [broadcastTo_a1_ab_apply _ broadcasts_S1024x1_S1024x32 n g,
    shapeCast_a_a1_apply _ shapeCasts_S1024_S1024x1 n (0 : Fin 1)]
  refine (congrArg (Ideal.div (exps v2 v4 v7 (ix2 n g))) (lanesum_apply (exps v2 v4 v7) _ _ n)).trans ?_
  rw [exps_apply]
  refine congrArg (Ideal.div (rowExp (logit (slab1 v7 n) (wT v2) (bRow v4)) g)) ?_
  exact Finset.sum_congr rfl fun g' _ => exps_apply v2 v4 v7 n g'

/-- The body's column sums of the mixture weights are the masses. -/
theorem pay9_apply (v2 : FVec Ideal S512x32 .bf16) (v4 : FVec Ideal S1x32 .f32) (v7 : Vec Ideal S1x1024x512 .f32)
    (g : Fin 32) :
    k0_pay9 (F := Ideal) v2 v4 v7 (ix1 g) = mass (slab1 v7) (wT v2) (bRow v4) g :=
  (rowsum_apply (k0_pay6 (F := Ideal) v2 v4 v7) (.inl rfl) rfl g).trans
    (Finset.sum_congr rfl fun n _ => pay6_apply v2 v4 v7 n g)

end Cert.Mdn.Pay

end
-- ==== Proof.PayResults.lean ====
/-
  The body's three results at an index.

  From the mixture weights `π [1024, 32]` and their column sums `D [32]` (the masses) one trip of the body computes
  the mean masses `D · 2⁻¹⁰` as a `[1, 1, 32]` array, the locations `(πᵀ · μ) / D` and the scales
  `sqrt (max ((πᵀ · (μ² + σ²)) / D − loc², 0))`, both `[32, 256]`, where `μ` and `σ` are the two halves of the slab's
  features and the products `πᵀ · …` contract over the 1024 rows. Each is read here at an index given by coordinates
  and identified with the specification's function of the same name.
-/
import proofs.«141120_j24472723652814_2_alg».proof.Proof.Gen.KernelIdeal.Skeleton
import proofs.«141120_j24472723652814_2_alg».proof.Proof.Spec
import proofs.«141120_j24472723652814_2_alg».proof.Proof.LibKeepdims
import Idealize.ShloMosaic.Lib.ValueLayout
import Idealize.ShloMosaic.Lib.Pipeline.Value
import Idealize.ShloMosaic.PureOps.Ideal.Laws
import proofs.«141120_j24472723652814_2_alg».proof.Proof.PaySoftmax

noncomputable section

namespace Cert.Mdn.Pay

open Idealize.ShloMosaic Idealize.ShloMosaic.ValueIdx Cert.KernelIdeal Cert.KernelIdeal.Gen

/-! ## The contraction over the rows -/

/-- The dimension numbers of the two products with `πᵀ`: both operands contract their rows. -/
abbrev D2 : DotDims S1024x32 S1024x256 S32x256 := dot_S1024x32_S1024x256_S32x256_0_0_1_1_n_n

theorem d2_lhs0 (i : S32x256.Idx) (q : D2.contr.Idx) : (D2.lhsIdx i q 0).val = (q ⟨0, by decide⟩).val :=
  D2.lhsIdx_val_of_single rfl i q

theorem d2_lhs1 (i : S32x256.Idx) (q : D2.contr.Idx) : (D2.lhsIdx i q 1).val = (i 0).val := by
  unfold DotDims.lhsIdx
  rw [dif_neg (show ¬(1 : Fin S1024x32.rank) ∈ D2.lhsBatch by decide),
    dif_pos (show (1 : Fin S1024x32.rank) ∈ D2.lhsNonContracting by decide)]
  rfl

theorem d2_rhs0 (i : S32x256.Idx) (q : D2.contr.Idx) : (D2.rhsIdx i q 0).val = (q ⟨0, by decide⟩).val :=
  D2.rhsIdx_val_of_single rfl i q

theorem d2_rhs1 (i : S32x256.Idx) (q : D2.contr.Idx) : (D2.rhsIdx i q 1).val = (i 1).val := by
  unfold DotDims.rhsIdx
  rw [dif_neg (show ¬(1 : Fin S1024x256.rank) ∈ D2.rhsBatch by decide),
    dif_pos (show (1 : Fin S1024x256.rank) ∈ D2.rhsNonContracting by decide)]
  rfl

/-- The contraction into a zero array, at `(g, o)`: the sum over the rows `n` of `lhs (n, g) · rhs (n, o)`. -/
theorem matmul2_apply (lhs : FVec Ideal S1024x32 .bf16) (rhs : FVec Ideal S1024x256 .bf16) (g : Fin 32) (o : Fin 256) :
    matmul D2 none lhs rhs (constant (F := Ideal) S32x256 .f32 0x00000000#32) (ix2 g o)
      = ∑ n : Fin 1024, lhs (ix2 n g) * rhs (ix2 n o) := by
  refine (Ideal.matmul_constant_zero_apply D2 none lhs rhs (ix2 g o)).trans ?_
  rw [← Equiv.sum_comp (contrEquiv1 D2 1024 rfl rfl).symm]
  refine Finset.sum_congr rfl fun k _ => ?_
  have hk := contrEquiv1_symm_val D2 1024 rfl rfl k
  have el : D2.lhsIdx (ix2 g o) ((contrEquiv1 D2 1024 rfl rfl).symm k) = ix2 k g := funext fun a => Fin.ext (by
    match a with
    | ⟨0, _⟩ => exact (d2_lhs0 _ _).trans hk
    | ⟨1, _⟩ => exact d2_lhs1 _ _)
  have er : D2.rhsIdx (ix2 g o) ((contrEquiv1 D2 1024 rfl rfl).symm k) = ix2 k o := funext fun a => Fin.ext (by
    match a with
    | ⟨0, _⟩ => exact (d2_rhs0 _ _).trans hk
    | ⟨1, _⟩ => exact d2_rhs1 _ _)
  rw [el, er]

/-! ## The two halves of the features, the weights as the left operand, the masses as a column -/

/-- The first 256 columns of the slab are `μ`. -/
theorem pay7_apply (v7 : Vec Ideal S1x1024x512 .f32) (n : Fin 1024) (o : Fin 256) :
    k0_pay7 (F := Ideal) v7 (ix2 n o) = mu (slab1 v7) n o :=
  (slice2_axis1_apply 0 (k0_pay5 (F := Ideal) v7) slices_S1024x512_o0_0_S1024x256 n o ⟨o.val, by omega⟩
    (Nat.zero_add _).symm).trans (pay5_apply v7 n _)

/-- The last 256 columns of the slab. -/
def upper (v7 : Vec Ideal S1x1024x512 .f32) : FVec Ideal S1024x256 .f32 :=
  extractStridedSlice S1024x256 ![0, 256] (k0_pay5 (F := Ideal) v7) slices_S1024x512_o0_256_S1024x256

/-- The last 256 columns of the slab are `σ`. -/
theorem upper_apply (v7 : Vec Ideal S1x1024x512 .f32) (n : Fin 1024) (o : Fin 256) :
    upper v7 (ix2 n o) = sigma (slab1 v7) n o :=
  (slice2_axis1_apply 256 (k0_pay5 (F := Ideal) v7) slices_S1024x512_o0_256_S1024x256 n o ⟨256 + o.val, by omega⟩
    rfl).trans (pay5_apply v7 n _)

/-- The left operand of the two products is the array of mixture weights. -/
theorem pay8_apply (v2 : FVec Ideal S512x32 .bf16) (v4 : FVec Ideal S1x32 .f32) (v7 : Vec Ideal S1x1024x512 .f32)
    (n : Fin 1024) (g : Fin 32) :
    k0_pay8 (F := Ideal) v2 v4 v7 (ix2 n g) = mix (slab1 v7) (wT v2) (bRow v4) n g :=
  pay6_apply v2 v4 v7 n g

/-- The masses kept as a column. -/
theorem pay10_apply (v2 : FVec Ideal S512x32 .bf16) (v4 : FVec Ideal S1x32 .f32) (v7 : Vec Ideal S1x1024x512 .f32)
    (g : Fin 32) (u : Fin 1) :
    k0_pay10 (F := Ideal) v2 v4 v7 (ix2 g u) = mass (slab1 v7) (wT v2) (bRow v4) g :=
  (shapeCast_a_a1_apply (k0_pay9 (F := Ideal) v2 v4 v7) shapeCasts_S32_S32x1 g u).trans (pay9_apply v2 v4 v7 g)

/-- The masses as a column repeated along the 256 features, at `(g, o)`. -/
theorem massCol_apply (v2 : FVec Ideal S512x32 .bf16) (v4 : FVec Ideal S1x32 .f32) (v7 : Vec Ideal S1x1024x512 .f32)
    (g : Fin 32) (o : Fin 256) :
    broadcastTo S32x256 (k0_pay10 (F := Ideal) v2 v4 v7) broadcasts_S32x1_S32x256 (ix2 g o)
      = mass (slab1 v7) (wT v2) (bRow v4) g :=
  (broadcastTo_a1_ab_apply (k0_pay10 (F := Ideal) v2 v4 v7) broadcasts_S32x1_S32x256 g o).trans
    (pay10_apply v2 v4 v7 g (0 : Fin 1))

/-! ## The mean masses -/

/-- The body's first result at `(0, 0, g)`: the mass of `g` times 2⁻¹⁰. -/
theorem pay13_apply (v2 : FVec Ideal S512x32 .bf16) (v4 : FVec Ideal S1x32 .f32) (v7 : Vec Ideal S1x1024x512 .f32)
    (g : Fin 32) :
    k0_pay13 (F := Ideal) v2 v4 v7 (ix3 (0 : Fin 1) (0 : Fin 1) g)
      = weight (slab1 v7) (wT v2) (bRow v4) g := by
  show shapeCast S1x1x32 (shapeCast S1x32
      (mulf (k0_pay9 (F := Ideal) v2 v4 v7) (broadcast S32 (Scalar.ofBits (F := Ideal) .f32 0x3A800000#32)))
      shapeCasts_S32_S1x32) shapeCasts_S1x32_S1x1x32 (ix3 (0 : Fin 1) (0 : Fin 1) g) = _
  rw [shapeCast_ab_1ab_apply _ shapeCasts_S1x32_S1x1x32 (0 : Fin 1) (0 : Fin 1) g,
    shapeCast_a_1a_apply _ shapeCasts_S32_S1x32 (0 : Fin 1) g]
  exact congrArg (· * Ideal.ofBits .f32 0x3A800000#32) (pay9_apply v2 v4 v7 g)

/-! ## The locations -/

/-- The body's second result at `(g, o)`: the mass-weighted mean of `μ`. -/
theorem pay11_apply (v2 : FVec Ideal S512x32 .bf16) (v4 : FVec Ideal S1x32 .f32) (v7 : Vec Ideal S1x1024x512 .f32)
    (g : Fin 32) (o : Fin 256) :
    k0_pay11 (F := Ideal) v2 v4 v7 (ix2 g o) = loc (slab1 v7) (wT v2) (bRow v4) g o := by
  show Ideal.div
      (matmul D2 none (k0_pay8 (F := Ideal) v2 v4 v7) (truncf .bf16 (k0_pay7 (F := Ideal) v7) bitsLt_bf16_f32)
        (constant (F := Ideal) S32x256 .f32 0x00000000#32) (ix2 g o))
      (broadcastTo S32x256 (k0_pay10 (F := Ideal) v2 v4 v7) broadcasts_S32x1_S32x256 (ix2 g o)) = _
  rw [matmul2_apply, massCol_apply]
  refine congrArg (Ideal.div · (mass (slab1 v7) (wT v2) (bRow v4) g)) (Finset.sum_congr rfl fun n _ => ?_)
  show k0_pay8 (F := Ideal) v2 v4 v7 (ix2 n g) * k0_pay7 (F := Ideal) v7 (ix2 n o) = _
  rw [pay8_apply, pay7_apply]

/-! ## The scales -/

/-- The right operand of the second product: `μ² + σ²`. -/
def sqsum (v7 : Vec Ideal S1x1024x512 .f32) : FVec Ideal S1024x256 .bf16 :=
  truncf .bf16 (addf (mulf (k0_pay7 (F := Ideal) v7) (k0_pay7 (F := Ideal) v7)) (mulf (upper v7) (upper v7))) bitsLt_bf16_f32

theorem sqsum_apply (v7 : Vec Ideal S1x1024x512 .f32) (n : Fin 1024) (o : Fin 256) :
    sqsum v7 (ix2 n o) = mu (slab1 v7) n o * mu (slab1 v7) n o + sigma (slab1 v7) n o * sigma (slab1 v7) n o := by
  show k0_pay7 (F := Ideal) v7 (ix2 n o) * k0_pay7 (F := Ideal) v7 (ix2 n o) + upper v7 (ix2 n o) * upper v7 (ix2 n o) = _
  rw [pay7_apply, upper_apply]

/-- The body's mass-weighted mean of `μ² + σ²` at `(g, o)`. -/
theorem second_apply (v2 : FVec Ideal S512x32 .bf16) (v4 : FVec Ideal S1x32 .f32) (v7 : Vec Ideal S1x1024x512 .f32)
    (g : Fin 32) (o : Fin 256) :
    Ideal.div
      (matmul D2 none (k0_pay8 (F := Ideal) v2 v4 v7) (sqsum v7) (constant (F := Ideal) S32x256 .f32 0x00000000#32) (ix2 g o))
      (broadcastTo S32x256 (k0_pay10 (F := Ideal) v2 v4 v7) broadcasts_S32x1_S32x256 (ix2 g o))
      = second (slab1 v7) (wT v2) (bRow v4) g o := by
  rw [matmul2_apply, massCol_apply]
  refine congrArg (Ideal.div · (mass (slab1 v7) (wT v2) (bRow v4) g)) (Finset.sum_congr rfl fun n _ => ?_)
  rw [pay8_apply, sqsum_apply]

/-- The body's third result as operations on whole arrays. -/
theorem pay12_eq (v2 : FVec Ideal S512x32 .bf16) (v4 : FVec Ideal S1x32 .f32) (v7 : Vec Ideal S1x1024x512 .f32) :
    k0_pay12 (F := Ideal) v2 v4 v7 = sqrt (maximumf
      (subf
        (divf (matmul D2 none (k0_pay8 (F := Ideal) v2 v4 v7) (sqsum v7) (constant (F := Ideal) S32x256 .f32 0x00000000#32))
          (broadcastTo S32x256 (k0_pay10 (F := Ideal) v2 v4 v7) broadcasts_S32x1_S32x256))
        (mulf (k0_pay11 (F := Ideal) v2 v4 v7) (k0_pay11 (F := Ideal) v2 v4 v7)))
      (broadcast S32x256 (Scalar.ofBits (F := Ideal) .f32 0x00000000#32))) := rfl

/-- The body's third result at `(g, o)`: the square root of the variance clamped at zero. -/
theorem pay12_apply (v2 : FVec Ideal S512x32 .bf16) (v4 : FVec Ideal S1x32 .f32) (v7 : Vec Ideal S1x1024x512 .f32)
    (g : Fin 32) (o : Fin 256) :
    k0_pay12 (F := Ideal) v2 v4 v7 (ix2 g o) = scale (slab1 v7) (wT v2) (bRow v4) g o := by
  rw [pay12_eq]
  show Ideal.sqrt (max
      (Ideal.div
          (matmul D2 none (k0_pay8 (F := Ideal) v2 v4 v7) (sqsum v7) (constant (F := Ideal) S32x256 .f32 0x00000000#32) (ix2 g o))
          (broadcastTo S32x256 (k0_pay10 (F := Ideal) v2 v4 v7) broadcasts_S32x1_S32x256 (ix2 g o))
        - k0_pay11 (F := Ideal) v2 v4 v7 (ix2 g o) * k0_pay11 (F := Ideal) v2 v4 v7 (ix2 g o))
      (Ideal.ofBits .f32 0x00000000#32)) = _
  rw [second_apply, pay11_apply]
  rfl

end Cert.Mdn.Pay

end
-- ==== Proof.PointValue.lean ====
/-
  One trip of the body on slab `j` of a block, as the specification of a batch member.

  The trip reads slab `j` of the block of four, the transposed weight matrix and the bias row. When these hold
  batch member `b`'s slab of the input array, the weight matrix and the bias, the trip's three results are the
  specification's mean masses, locations and scales of batch member `b`: the casts of the transposed matrix and of
  the bias row to their own shapes are the identity, a change of float format is the identity on extended reals,
  and the cast `[32, 256] → [1, 32, 256]` reads `(0, g, o)` at `(g, o)`.
-/
import proofs.«141120_j24472723652814_2_alg».proof.Proof.PayResults
import proofs.«141120_j24472723652814_2_alg».proof.Proof.Slab

noncomputable section

namespace Cert.Mdn.Point

open Idealize.ShloMosaic Idealize.ShloMosaic.ValueIdx Cert.KernelIdeal Cert.KernelIdeal.Gen

/-! ## The three operands by coordinates -/

/-- Slab `j` of the block is batch member `b`'s slab of the array. -/
theorem slab_eq (x0 : Vec Ideal S4x1024x512 .f32) (X : (⟨3, ![32, 1024, 512]⟩ : Shape).Idx → EReal) (j : Fin 4) (b : Fin 32)
    (h0 : ∀ (n : Fin 1024) (d : Fin 512), x0 (ix3 j n d) = X (ix3 b n d)) :
    slab1 (slabAt x0 j) = slabOf X b :=
  funext fun n => funext fun d => h0 n d

/-- The transposed block, cast to its own shape and narrowed, is the weight matrix. -/
theorem wT_eq (x1 : Vec Ideal S512x32 .f32) (W : (⟨2, ![32, 512]⟩ : Shape).Idx → EReal)
    (h1 : ∀ (d : Fin 512) (g : Fin 32), x1 (ix2 d g) = W (ix2 g d)) :
    wT (k0_pay1 (F := Ideal) x1) = wOf W :=
  funext fun g => funext fun d =>
    (congrFun (shapeCast_self x1 shapeCasts_S512x32_S512x32) (ix2 d g)).trans (h1 d g)

/-- The bias row, cast to its own shape, is the bias. -/
theorem bRow_eq (x2 : Vec Ideal S1x32 .f32) (B : (⟨1, ![32]⟩ : Shape).Idx → EReal)
    (h2 : ∀ g : Fin 32, x2 (ix2 (0 : Fin 1) g) = B (ix1 g)) :
    bRow (k0_pay2 (F := Ideal) x2) = bOf B :=
  funext fun g => (congrFun (shapeCast_self x2 shapeCasts_S1x32_S1x32) (ix2 (0 : Fin 1) g)).trans (h2 g)

/-! ## The three results -/

/-- The trip's first result at `(0, 0, g)` is batch member `b`'s mean mass of `g`. -/
theorem point_weight (x0 : Vec Ideal S4x1024x512 .f32) (x1 : Vec Ideal S512x32 .f32) (x2 : Vec Ideal S1x32 .f32)
    (X : (⟨3, ![32, 1024, 512]⟩ : Shape).Idx → EReal) (W : (⟨2, ![32, 512]⟩ : Shape).Idx → EReal)
    (B : (⟨1, ![32]⟩ : Shape).Idx → EReal) (j : Fin 4) (b : Fin 32)
    (h0 : ∀ (n : Fin 1024) (d : Fin 512), x0 (ix3 j n d) = X (ix3 b n d))
    (h1 : ∀ (d : Fin 512) (g : Fin 32), x1 (ix2 d g) = W (ix2 g d))
    (h2 : ∀ g : Fin 32, x2 (ix2 (0 : Fin 1) g) = B (ix1 g)) (g : Fin 32) :
    k0_pay13 (F := Ideal) (k0_pay1 x1) (k0_pay2 x2) (Cert.Mdn.slabAt x0 j) (ix3 (0 : Fin 1) (0 : Fin 1) g)
      = Cert.Mdn.weight (Cert.Mdn.slabOf X b) (Cert.Mdn.wOf W) (Cert.Mdn.bOf B) g := by
  rw [Pay.pay13_apply, slab_eq x0 X j b h0, wT_eq x1 W h1, bRow_eq x2 B h2]

/-- The trip's second result at `(0, g, o)` is batch member `b`'s location. -/
theorem point_loc (x0 : Vec Ideal S4x1024x512 .f32) (x1 : Vec Ideal S512x32 .f32) (x2 : Vec Ideal S1x32 .f32)
    (X : (⟨3, ![32, 1024, 512]⟩ : Shape).Idx → EReal) (W : (⟨2, ![32, 512]⟩ : Shape).Idx → EReal)
    (B : (⟨1, ![32]⟩ : Shape).Idx → EReal) (j : Fin 4) (b : Fin 32)
    (h0 : ∀ (n : Fin 1024) (d : Fin 512), x0 (ix3 j n d) = X (ix3 b n d))
    (h1 : ∀ (d : Fin 512) (g : Fin 32), x1 (ix2 d g) = W (ix2 g d))
    (h2 : ∀ g : Fin 32, x2 (ix2 (0 : Fin 1) g) = B (ix1 g)) (g : Fin 32) (o : Fin 256) :
    k0_pay3 (F := Ideal) (k0_pay11 (k0_pay1 x1) (k0_pay2 x2) (Cert.Mdn.slabAt x0 j)) (ix3 (0 : Fin 1) g o)
      = Cert.Mdn.loc (Cert.Mdn.slabOf X b) (Cert.Mdn.wOf W) (Cert.Mdn.bOf B) g o := by
  refine (shapeCast_ab_1ab_apply (k0_pay11 (F := Ideal) (k0_pay1 x1) (k0_pay2 x2) (Cert.Mdn.slabAt x0 j))
    shapeCasts_S32x256_S1x32x256 (0 : Fin 1) g o).trans ?_
  rw [Pay.pay11_apply, slab_eq x0 X j b h0, wT_eq x1 W h1, bRow_eq x2 B h2]

/-- The trip's third result at `(0, g, o)` is batch member `b`'s scale. -/
theorem point_scale (x0 : Vec Ideal S4x1024x512 .f32) (x1 : Vec Ideal S512x32 .f32) (x2 : Vec Ideal S1x32 .f32)
    (X : (⟨3, ![32, 1024, 512]⟩ : Shape).Idx → EReal) (W : (⟨2, ![32, 512]⟩ : Shape).Idx → EReal)
    (B : (⟨1, ![32]⟩ : Shape).Idx → EReal) (j : Fin 4) (b : Fin 32)
    (h0 : ∀ (n : Fin 1024) (d : Fin 512), x0 (ix3 j n d) = X (ix3 b n d))
    (h1 : ∀ (d : Fin 512) (g : Fin 32), x1 (ix2 d g) = W (ix2 g d))
    (h2 : ∀ g : Fin 32, x2 (ix2 (0 : Fin 1) g) = B (ix1 g)) (g : Fin 32) (o : Fin 256) :
    k0_pay4 (F := Ideal) (k0_pay12 (k0_pay1 x1) (k0_pay2 x2) (Cert.Mdn.slabAt x0 j)) (ix3 (0 : Fin 1) g o)
      = Cert.Mdn.scale (Cert.Mdn.slabOf X b) (Cert.Mdn.wOf W) (Cert.Mdn.bOf B) g o := by
  refine (shapeCast_ab_1ab_apply (k0_pay12 (F := Ideal) (k0_pay1 x1) (k0_pay2 x2) (Cert.Mdn.slabAt x0 j))
    shapeCasts_S32x256_S1x32x256 (0 : Fin 1) g o).trans ?_
  rw [Pay.pay12_apply, slab_eq x0 X j b h0, wT_eq x1 W h1, bRow_eq x2 B h2]

end Cert.Mdn.Point

end
-- ==== Proof.Arrays.lean ====
/-
  From blocks to the arrays: the three results of the pipeline as functions of the argument arrays.

  The grid has 8 points. Point `t` writes back block `t` of each of the three result arrays: rows `4t … 4t + 3` of
  the batch axis, every other axis whole (the index maps are `(t, 0, 0)`, the blocks `[4, 1, 32]` of `[32, 1, 32]`
  and `[4, 32, 256]` of `[32, 32, 256]`). If what the body leaves in a window's block at point `t`, row `j`, is the
  specification's value for batch member `4t + j`, then the array after the last point is the specification's
  function of the argument arrays: every point writes back, each point's block is a block of that one function,
  and the blocks cover the array (batch member `b` lies in the block of point `b / 4`). Nothing here is arithmetic
  on the values: it is indexing only, stated for any proof data of the pipeline.
-/
import proofs.«141120_j24472723652814_2_alg».proof.Proof.Gen.KernelIdeal.Points
import proofs.«141120_j24472723652814_2_alg».proof.Proof.Gen.KernelIdeal.Launch
import proofs.«141120_j24472723652814_2_alg».proof.Proof.Spec
import Idealize.ShloMosaic.Lib.Pipeline.Value
import Idealize.ShloMosaic.Lib.ValueIdx

noncomputable section

namespace Cert.Mdn.Arrays

open Cert.KernelIdeal Cert.KernelIdeal.Gen Idealize.ShloMosaic Idealize.ShloMosaic.TcCoe Idealize.SL.Sem Idealize.ShloMosaic.ValueIdx
open Idealize.ShloMosaic.Pipeline (Dat)

variable {c : Dev nD} (dat : Dat τ (Elt Ideal) Unit ℕ (UR sig nD τ) ℕ cfg0 c)
variable (x : (⟨3, ![32, 1024, 512]⟩ : Shape).Idx → EReal) (w : (⟨2, ![32, 512]⟩ : Shape).Idx → EReal)
  (β : (⟨1, ![32]⟩ : Shape).Idx → EReal)

/-- Batch member `4t + j`: row `j` of the block of point `t`. -/
def member (t : Fin cfg0.N) (j : Fin 4) : Fin 32 :=
  ⟨4 * t.val + j.val, by have := t.isLt; have hN : cfg0.N = 8 := N_0; omega⟩

/-! ## The index maps, decided over the grid -/

theorem idx_facts3 : ∀ t : Fin cfg0.N, win0_3.index t (0 : Fin 3) = t.val ∧ win0_3.index t (1 : Fin 3) = 0
    ∧ win0_3.index t (2 : Fin 3) = 0 :=
  (by decide +kernel : ∀ t : Fin grid0.N, _)

theorem idx_facts4 : ∀ t : Fin cfg0.N, win0_4.index t (0 : Fin 3) = t.val ∧ win0_4.index t (1 : Fin 3) = 0
    ∧ win0_4.index t (2 : Fin 3) = 0 :=
  (by decide +kernel : ∀ t : Fin grid0.N, _)

theorem idx_facts5 : ∀ t : Fin cfg0.N, win0_5.index t (0 : Fin 3) = t.val ∧ win0_5.index t (1 : Fin 3) = 0
    ∧ win0_5.index t (2 : Fin 3) = 0 :=
  (by decide +kernel : ∀ t : Fin grid0.N, _)

/-! ## Where a block's index lies in its array -/

/-- Row `j` of the block of point `t` of the `[32, 1, 32]` array is batch member `4t + j`. -/
theorem emb3 (t : Fin cfg0.N) (j : Fin 4) (u : Fin 1) (g : Fin 32) :
    (((cfg0.win 3).blk t).view.emb (ix3 j u g) : S32x1x32.Idx) = ix3 (member t j) u g := by
  obtain ⟨e0, e1, e2⟩ := idx_facts3 t
  funext a; apply Fin.ext
  match a with
  | ⟨0, _⟩ => show win0_3.index t (0 : Fin 3) * 4 + 1 * j.val = 4 * t.val + j.val; rw [e0]; omega
  | ⟨1, _⟩ => show win0_3.index t (1 : Fin 3) * 1 + 1 * u.val = u.val; rw [e1]; omega
  | ⟨2, _⟩ => show win0_3.index t (2 : Fin 3) * 32 + 1 * g.val = g.val; rw [e2]; omega

/-- Row `j` of the block of point `t` of the first `[32, 32, 256]` array is batch member `4t + j`. -/
theorem emb4 (t : Fin cfg0.N) (j : Fin 4) (g : Fin 32) (o : Fin 256) :
    (((cfg0.win 4).blk t).view.emb (ix3 j g o) : S32x32x256.Idx) = ix3 (member t j) g o := by
  obtain ⟨e0, e1, e2⟩ := idx_facts4 t
  funext a; apply Fin.ext
  match a with
  | ⟨0, _⟩ => show win0_4.index t (0 : Fin 3) * 4 + 1 * j.val = 4 * t.val + j.val; rw [e0]; omega
  | ⟨1, _⟩ => show win0_4.index t (1 : Fin 3) * 32 + 1 * g.val = g.val; rw [e1]; omega
  | ⟨2, _⟩ => show win0_4.index t (2 : Fin 3) * 256 + 1 * o.val = o.val; rw [e2]; omega

/-- Row `j` of the block of point `t` of the second `[32, 32, 256]` array is batch member `4t + j`. -/
theorem emb5 (t : Fin cfg0.N) (j : Fin 4) (g : Fin 32) (o : Fin 256) :
    (((cfg0.win 5).blk t).view.emb (ix3 j g o) : S32x32x256.Idx) = ix3 (member t j) g o := by
  obtain ⟨e0, e1, e2⟩ := idx_facts5 t
  funext a; apply Fin.ext
  match a with
  | ⟨0, _⟩ => show win0_5.index t (0 : Fin 3) * 4 + 1 * j.val = 4 * t.val + j.val; rw [e0]; omega
  | ⟨1, _⟩ => show win0_5.index t (1 : Fin 3) * 32 + 1 * g.val = g.val; rw [e1]; omega
  | ⟨2, _⟩ => show win0_5.index t (2 : Fin 3) * 256 + 1 * o.val = o.val; rw [e2]; omega

/-! ## Which indices a point's block holds -/

theorem mem_blk3 (t : Fin cfg0.N) (i : S32x1x32.Idx) :
    i ∈ ((cfg0.win 3).blk t).view.set ↔ ∀ a : Fin 3, win0_3.index t a * S4x1x32.size a ≤ (i a).val
      ∧ (i a).val < win0_3.index t a * S4x1x32.size a + S4x1x32.size a := by
  show i ∈ ((View.whole main_v2_0).slice (win0_3.rect t)).set ↔ _
  rw [View.set_slice_whole, Rect.mem_set_unit]
  exact Iff.rfl

theorem mem_blk4 (t : Fin cfg0.N) (i : S32x32x256.Idx) :
    i ∈ ((cfg0.win 4).blk t).view.set ↔ ∀ a : Fin 3, win0_4.index t a * S4x32x256.size a ≤ (i a).val
      ∧ (i a).val < win0_4.index t a * S4x32x256.size a + S4x32x256.size a := by
  show i ∈ ((View.whole main_v2_1).slice (win0_4.rect t)).set ↔ _
  rw [View.set_slice_whole, Rect.mem_set_unit]
  exact Iff.rfl

theorem mem_blk5 (t : Fin cfg0.N) (i : S32x32x256.Idx) :
    i ∈ ((cfg0.win 5).blk t).view.set ↔ ∀ a : Fin 3, win0_5.index t a * S4x32x256.size a ≤ (i a).val
      ∧ (i a).val < win0_5.index t a * S4x32x256.size a + S4x32x256.size a := by
  show i ∈ ((View.whole main_v2_2).slice (win0_5.rect t)).set ↔ _
  rw [View.set_slice_whole, Rect.mem_set_unit]
  exact Iff.rfl

/-! ## The blocks cover the arrays: batch member `b` is in the block of point `b / 4` -/

theorem cover3 (i : S32x1x32.Idx) :
    ∃ t : Fin cfg0.N, (cfg0.win 3).flush t = true ∧ i ∈ ((cfg0.win 3).blk t).view.set := by
  have hN : cfg0.N = 8 := N_0
  have hi0 : (i 0).val < 32 := (i 0).isLt
  have hi1 : (i 1).val < 1 := (i 1).isLt
  have hi2 : (i 2).val < 32 := (i 2).isLt
  obtain ⟨e0, e1, e2⟩ := idx_facts3 ⟨(i 0).val / 4, by omega⟩
  refine ⟨⟨(i 0).val / 4, by omega⟩, flush0_3 _, ?_⟩
  rw [mem_blk3]
  intro a
  match a with
  | ⟨0, _⟩ =>
    show win0_3.index ⟨(i 0).val / 4, _⟩ (0 : Fin 3) * 4 ≤ (i 0).val
      ∧ (i 0).val < win0_3.index ⟨(i 0).val / 4, _⟩ (0 : Fin 3) * 4 + 4
    rw [e0]; show (i 0).val / 4 * 4 ≤ (i 0).val ∧ (i 0).val < (i 0).val / 4 * 4 + 4; omega
  | ⟨1, _⟩ =>
    show win0_3.index ⟨(i 0).val / 4, _⟩ (1 : Fin 3) * 1 ≤ (i 1).val
      ∧ (i 1).val < win0_3.index ⟨(i 0).val / 4, _⟩ (1 : Fin 3) * 1 + 1
    rw [e1]; omega
  | ⟨2, _⟩ =>
    show win0_3.index ⟨(i 0).val / 4, _⟩ (2 : Fin 3) * 32 ≤ (i 2).val
      ∧ (i 2).val < win0_3.index ⟨(i 0).val / 4, _⟩ (2 : Fin 3) * 32 + 32
    rw [e2]; omega

theorem cover4 (i : S32x32x256.Idx) :
    ∃ t : Fin cfg0.N, (cfg0.win 4).flush t = true ∧ i ∈ ((cfg0.win 4).blk t).view.set := by
  have hN : cfg0.N = 8 := N_0
  have hi0 : (i 0).val < 32 := (i 0).isLt
  have hi1 : (i 1).val < 32 := (i 1).isLt
  have hi2 : (i 2).val < 256 := (i 2).isLt
  obtain ⟨e0, e1, e2⟩ := idx_facts4 ⟨(i 0).val / 4, by omega⟩
  refine ⟨⟨(i 0).val / 4, by omega⟩, flush0_4 _, ?_⟩
  rw [mem_blk4]
  intro a
  match a with
  | ⟨0, _⟩ =>
    show win0_4.index ⟨(i 0).val / 4, _⟩ (0 : Fin 3) * 4 ≤ (i 0).val
      ∧ (i 0).val < win0_4.index ⟨(i 0).val / 4, _⟩ (0 : Fin 3) * 4 + 4
    rw [e0]; show (i 0).val / 4 * 4 ≤ (i 0).val ∧ (i 0).val < (i 0).val / 4 * 4 + 4; omega
  | ⟨1, _⟩ =>
    show win0_4.index ⟨(i 0).val / 4, _⟩ (1 : Fin 3) * 32 ≤ (i 1).val
      ∧ (i 1).val < win0_4.index ⟨(i 0).val / 4, _⟩ (1 : Fin 3) * 32 + 32
    rw [e1]; omega
  | ⟨2, _⟩ =>
    show win0_4.index ⟨(i 0).val / 4, _⟩ (2 : Fin 3) * 256 ≤ (i 2).val
      ∧ (i 2).val < win0_4.index ⟨(i 0).val / 4, _⟩ (2 : Fin 3) * 256 + 256
    rw [e2]; omega

theorem cover5 (i : S32x32x256.Idx) :
    ∃ t : Fin cfg0.N, (cfg0.win 5).flush t = true ∧ i ∈ ((cfg0.win 5).blk t).view.set := by
  have hN : cfg0.N = 8 := N_0
  have hi0 : (i 0).val < 32 := (i 0).isLt
  have hi1 : (i 1).val < 32 := (i 1).isLt
  have hi2 : (i 2).val < 256 := (i 2).isLt
  obtain ⟨e0, e1, e2⟩ := idx_facts5 ⟨(i 0).val / 4, by omega⟩
  refine ⟨⟨(i 0).val / 4, by omega⟩, flush0_5 _, ?_⟩
  rw [mem_blk5]
  intro a
  match a with
  | ⟨0, _⟩ =>
    show win0_5.index ⟨(i 0).val / 4, _⟩ (0 : Fin 3) * 4 ≤ (i 0).val
      ∧ (i 0).val < win0_5.index ⟨(i 0).val / 4, _⟩ (0 : Fin 3) * 4 + 4
    rw [e0]; show (i 0).val / 4 * 4 ≤ (i 0).val ∧ (i 0).val < (i 0).val / 4 * 4 + 4; omega
  | ⟨1, _⟩ =>
    show win0_5.index ⟨(i 0).val / 4, _⟩ (1 : Fin 3) * 32 ≤ (i 1).val
      ∧ (i 1).val < win0_5.index ⟨(i 0).val / 4, _⟩ (1 : Fin 3) * 32 + 32
    rw [e1]; omega
  | ⟨2, _⟩ =>
    show win0_5.index ⟨(i 0).val / 4, _⟩ (2 : Fin 3) * 256 ≤ (i 2).val
      ∧ (i 2).val < win0_5.index ⟨(i 0).val / 4, _⟩ (2 : Fin 3) * 256 + 256
    rw [e2]; omega

/-! ## What each point writes back is its block of the specification's array -/

/-- The mean masses as a `[32, 1, 32]` array: batch member, unit axis, gaussian. -/
def weightArr : S32x1x32.Idx → EReal :=
  fun i => Cert.Mdn.weight (Cert.Mdn.slabOf x (i 0)) (Cert.Mdn.wOf w) (Cert.Mdn.bOf β) (i 2)

theorem flushedW_eq
    (hafter : ∀ (t : Fin cfg0.N) (j : Fin 4) (u : Fin 1) (g : Fin 32), (dat.after 3 t : S4x1x32.Idx → EReal) (ix3 j u g)
      = Cert.Mdn.weight (Cert.Mdn.slabOf x (member t j)) (Cert.Mdn.wOf w) (Cert.Mdn.bOf β) g)
    (t : Fin cfg0.N) :
    dat.flushed 3 t = ((cfg0.win 3).blk t).view.read (Elt Ideal) (weightArr x w β) := by
  show (cfg0.win 3).cut (grid0.coords t) (dat.after 3 t) = _
  funext y
  obtain ⟨j, u, g, rfl⟩ : ∃ (j : Fin 4) (u : Fin 1) (g : Fin 32), y = ix3 j u g := ⟨y 0, y 1, y 2, eq_ix3 y⟩
  show (dat.after 3 t : S4x1x32.Idx → EReal) (ix3 j u g) = weightArr x w β (((cfg0.win 3).blk t).view.emb (ix3 j u g))
  rw [hafter, emb3]
  rfl

theorem flushedL_eq
    (hafter : ∀ (t : Fin cfg0.N) (j : Fin 4) (g : Fin 32) (o : Fin 256), (dat.after 4 t : S4x32x256.Idx → EReal) (ix3 j g o)
      = Cert.Mdn.loc (Cert.Mdn.slabOf x (member t j)) (Cert.Mdn.wOf w) (Cert.Mdn.bOf β) g o)
    (t : Fin cfg0.N) :
    dat.flushed 4 t = ((cfg0.win 4).blk t).view.read (Elt Ideal) (Cert.Mdn.locs x w β) := by
  show (cfg0.win 4).cut (grid0.coords t) (dat.after 4 t) = _
  funext y
  obtain ⟨j, g, o, rfl⟩ : ∃ (j : Fin 4) (g : Fin 32) (o : Fin 256), y = ix3 j g o := ⟨y 0, y 1, y 2, eq_ix3 y⟩
  show (dat.after 4 t : S4x32x256.Idx → EReal) (ix3 j g o) = Cert.Mdn.locs x w β (((cfg0.win 4).blk t).view.emb (ix3 j g o))
  rw [hafter, emb4]
  rfl

theorem flushedS_eq
    (hafter : ∀ (t : Fin cfg0.N) (j : Fin 4) (g : Fin 32) (o : Fin 256), (dat.after 5 t : S4x32x256.Idx → EReal) (ix3 j g o)
      = Cert.Mdn.scale (Cert.Mdn.slabOf x (member t j)) (Cert.Mdn.wOf w) (Cert.Mdn.bOf β) g o)
    (t : Fin cfg0.N) :
    dat.flushed 5 t = ((cfg0.win 5).blk t).view.read (Elt Ideal) (Cert.Mdn.scales x w β) := by
  show (cfg0.win 5).cut (grid0.coords t) (dat.after 5 t) = _
  funext y
  obtain ⟨j, g, o, rfl⟩ : ∃ (j : Fin 4) (g : Fin 32) (o : Fin 256), y = ix3 j g o := ⟨y 0, y 1, y 2, eq_ix3 y⟩
  show (dat.after 5 t : S4x32x256.Idx → EReal) (ix3 j g o) = Cert.Mdn.scales x w β (((cfg0.win 5).blk t).view.emb (ix3 j g o))
  rw [hafter, emb5]
  rfl

/-! ## The arrays after the last point -/

/-- The first result array ends holding the mean masses of every batch member. -/
theorem finalW
    (hafter : ∀ (t : Fin cfg0.N) (j : Fin 4) (u : Fin 1) (g : Fin 32), (dat.after 3 t : S4x1x32.Idx → EReal) (ix3 j u g)
      = Cert.Mdn.weight (Cert.Mdn.slabOf x (member t j)) (Cert.Mdn.wOf w) (Cert.Mdn.bOf β) g) :
    (dat.arrAt 3 cfg0.N : S32x1x32.Idx → EReal)
      = fun i => Cert.Mdn.weight (Cert.Mdn.slabOf x (i 0)) (Cert.Mdn.wOf w) (Cert.Mdn.bOf β) (i 2) :=
  dat.arrAt_eq_of_cover 3 (weightArr x w β) (fun t _ => flushedW_eq dat x w β hafter t) cover3

/-- The second result array ends holding the locations. -/
theorem finalL
    (hafter : ∀ (t : Fin cfg0.N) (j : Fin 4) (g : Fin 32) (o : Fin 256), (dat.after 4 t : S4x32x256.Idx → EReal) (ix3 j g o)
      = Cert.Mdn.loc (Cert.Mdn.slabOf x (member t j)) (Cert.Mdn.wOf w) (Cert.Mdn.bOf β) g o) :
    (dat.arrAt 4 cfg0.N : S32x32x256.Idx → EReal) = Cert.Mdn.locs x w β :=
  dat.arrAt_eq_of_cover 4 (Cert.Mdn.locs x w β) (fun t _ => flushedL_eq dat x w β hafter t) cover4

/-- The third result array ends holding the scales. -/
theorem finalS
    (hafter : ∀ (t : Fin cfg0.N) (j : Fin 4) (g : Fin 32) (o : Fin 256), (dat.after 5 t : S4x32x256.Idx → EReal) (ix3 j g o)
      = Cert.Mdn.scale (Cert.Mdn.slabOf x (member t j)) (Cert.Mdn.wOf w) (Cert.Mdn.bOf β) g o) :
    (dat.arrAt 5 cfg0.N : S32x32x256.Idx → EReal) = Cert.Mdn.scales x w β :=
  dat.arrAt_eq_of_cover 5 (Cert.Mdn.scales x w β) (fun t _ => flushedS_eq dat x w β hafter t) cover5

end Cert.Mdn.Arrays

end
-- ==== Proof.Tail.lean ====
/-
  The one host operation after the region: the region's first result, an array `[32, 1, 32]`, is reshaped to
  `[32, 32]`. A reshape keeps the row-major position, and `(b · 1 + 0) · 32 + g = b · 32 + g`, so element `(b, g)`
  of the reshaped array is element `(b, 0, g)` of the region's first result. The other two results are arrays of the
  region that the reshape does not write: they end as the region leaves them.
-/
import proofs.«141120_j24472723652814_2_alg».proof.Proof.Gen.KernelIdeal.Frame.Runs
import Idealize.ShloMosaic.Lib.Pipeline.Value
import Idealize.ShloMosaic.Lib.ValueIdx
import Idealize.ShloMosaic.Lib.StableHlo.Run

noncomputable section

namespace Cert.Mdn.Tail

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F] (m : (ℓ : Loc nD τ sig) → Buf (Elt F) ℓ)

/-- Element `(b, g)` of the reshaped first result is element `(b, 0, g)` of the region's array. -/
theorem tail_weights (dats : (p : Fin 1) → (c : Dev nD) → Dat τ (Elt F) Unit ℕ (UR sig nD τ) ℕ (cfgs p) c) (c : Dev nD) (b g : Fin 32) :
    (Pipeline.afterTail₀ cfgs dats 0 (V0 m) [hostOps1] c main_v3 : S32x32.Idx → Elt F .f32) (ix2 b g)
      = ((dats 0 c).arrAt 3 cfg0.N : S32x1x32.Idx → Elt F .f32) (ix3 b (0 : Fin 1) g) := by
  unfold Pipeline.afterTail₀
  show StableHlo.after hostOps1 _ (Proc.devRef .tc main_v3) (ix2 b g) = _
  after_results
  show shapeCast S32x32 (Pipeline.withArrays spec0 c (V0 m c) (fun w => (dats 0 c).arrAt w cfg0.N)
      (Proc.devRef .tc (Pipeline.arrRef spec0 3))) shapeCasts_S32x1x32_S32x32 (ix2 b g) = _
  rw [Pipeline.withArrays_arr spec0 launch0.win.arr_inj c _ _ 3]
  exact shapeCast_apply _ _ (ix2 b g) (ix3 b (0 : Fin 1) g) (by
    rw [Shape.rowMajor_val_three, Shape.rowMajor_val_two]
    show (b.val * 1 + 0) * 32 + g.val = b.val * 32 + g.val
    omega)

/-- The reshape does not write the region's third result: it ends as the region leaves it. -/
theorem tail_scales (dats : (p : Fin 1) → (c : Dev nD) → Dat τ (Elt F) Unit ℕ (UR sig nD τ) ℕ (cfgs p) c) (c : Dev nD) :
    Pipeline.afterTail₀ cfgs dats 0 (V0 m) [hostOps1] c main_v2_2 = (dats 0 c).arrAt 5 cfg0.N := by
  unfold Pipeline.afterTail₀
  rw [StableHlo.after_of_forall_not_mem (b := Proc.devRef .tc main_v2_2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide)))]
  exact Pipeline.withArrays_arr spec0 launch0.win.arr_inj c _ _ 5

/-- Nor the second: it too ends as the region leaves it. -/
theorem tail_locs (dats : (p : Fin 1) → (c : Dev nD) → Dat τ (Elt F) Unit ℕ (UR sig nD τ) ℕ (cfgs p) c) (c : Dev nD) :
    Pipeline.afterTail₀ cfgs dats 0 (V0 m) [hostOps1] c main_v2_1 = (dats 0 c).arrAt 4 cfg0.N := by
  unfold Pipeline.afterTail₀
  rw [StableHlo.after_of_forall_not_mem (b := Proc.devRef .tc main_v2_1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide)))]
  exact Pipeline.withArrays_arr spec0 launch0.win.arr_inj c _ _ 4

end Cert.Mdn.Tail

end
-- ==== Proof.KernelValue.lean ====
/-
  The idealized kernel's run, read: each result array as the specification of the argument arrays.

  At grid point `t` the input block's slab `j` is batch member `4t + j` of the input array, the weight block is the
  weight matrix transposed and the bias block the bias as a row; so what the point leaves at `(j, …)` of its output
  blocks is the specification of batch member `4t + j`. The eight points' blocks tile the three result arrays, so
  each array ends as the specification of every batch member; the host's last reshape drops the unit axis of the
  mean masses.
-/
import proofs.«141120_j24472723652814_2_alg».proof.Proof.FrameIdeal
import proofs.«141120_j24472723652814_2_alg».proof.Proof.BodyValue
import proofs.«141120_j24472723652814_2_alg».proof.Proof.Blocks
import proofs.«141120_j24472723652814_2_alg».proof.Proof.PointValue
import proofs.«141120_j24472723652814_2_alg».proof.Proof.Arrays
import proofs.«141120_j24472723652814_2_alg».proof.Proof.Tail

set_option maxRecDepth 16384

noncomputable section

namespace Cert.Mdn.Kernel

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.Mdn Cert.Mdn.Arrays Cert.Mdn.BodyValue

variable (m : (ℓ : Loc nD τ sig) → Buf (Elt Ideal) ℓ) (ρ : Dev nD → PrngReg)

/-- The input array, the weight matrix and the bias as launched. -/
abbrev X (c : Dev nD) : S32x1024x512.Idx → EReal := m ((c : Thread nD τ).loc main_arg0)
abbrev W (c : Dev nD) : S32x512.Idx → EReal := m ((c : Thread nD τ).loc main_arg1)
abbrev B (c : Dev nD) : S32.Idx → EReal := m ((c : Thread nD τ).loc main_arg2)

/-- What point `t` leaves in the block of mean masses. -/
theorem afterW (c : Dev nD) (t : Fin cfg0.N) (j : Fin 4) (u : Fin 1) (g : Fin 32) :
    ((dats m 0 c).after 3 t : S4x1x32.Idx → EReal) (ix3 j u g)
      = Cert.Mdn.weight (slabOf (X m c) (member t j)) (wOf (W m c)) (bOf (B m c)) g := by
  obtain rfl : u = 0 := Subsingleton.elim _ _
  rw [after0_3]
  unfold outsAt0
  exact (outW_apply c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) j (0 : Fin 1) g).trans
    (Cert.Mdn.Point.point_weight (iblk m c 0 t) (iblk m c 1 t) (iblk m c 2 t) (X m c) (W m c) (B m c) j (member t j)
      (fun n d => Cert.Mdn.Blocks.iblk0_apply m c t (ix3 j n d) (ix3 (member t j) n d) rfl rfl rfl)
      (fun d g => Cert.Mdn.Blocks.iblk1_apply m c t d g)
      (fun g => Cert.Mdn.Blocks.iblk2_apply m c t (0 : Fin 1) g) g)

/-- What point `t` leaves in the block of locations. -/
theorem afterL (c : Dev nD) (t : Fin cfg0.N) (j : Fin 4) (g : Fin 32) (o : Fin 256) :
    ((dats m 0 c).after 4 t : S4x32x256.Idx → EReal) (ix3 j g o)
      = Cert.Mdn.loc (slabOf (X m c) (member t j)) (wOf (W m c)) (bOf (B m c)) g o := by
  rw [after0_4]
  unfold outsAt0
  exact (outL_apply c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) j g o).trans
    (Cert.Mdn.Point.point_loc (iblk m c 0 t) (iblk m c 1 t) (iblk m c 2 t) (X m c) (W m c) (B m c) j (member t j)
      (fun n d => Cert.Mdn.Blocks.iblk0_apply m c t (ix3 j n d) (ix3 (member t j) n d) rfl rfl rfl)
      (fun d g => Cert.Mdn.Blocks.iblk1_apply m c t d g)
      (fun g => Cert.Mdn.Blocks.iblk2_apply m c t (0 : Fin 1) g) g o)

/-- What point `t` leaves in the block of scales. -/
theorem afterS (c : Dev nD) (t : Fin cfg0.N) (j : Fin 4) (g : Fin 32) (o : Fin 256) :
    ((dats m 0 c).after 5 t : S4x32x256.Idx → EReal) (ix3 j g o)
      = Cert.Mdn.scale (slabOf (X m c) (member t j)) (wOf (W m c)) (bOf (B m c)) g o := by
  rw [after0_5]
  unfold outsAt0
  exact (outS_apply c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) j g o).trans
    (Cert.Mdn.Point.point_scale (iblk m c 0 t) (iblk m c 1 t) (iblk m c 2 t) (X m c) (W m c) (B m c) j (member t j)
      (fun n d => Cert.Mdn.Blocks.iblk0_apply m c t (ix3 j n d) (ix3 (member t j) n d) rfl rfl rfl)
      (fun d g => Cert.Mdn.Blocks.iblk1_apply m c t d g)
      (fun g => Cert.Mdn.Blocks.iblk2_apply m c t (0 : Fin 1) g) g o)

/-- The array of mean masses after the run, still with its unit axis. -/
theorem arrW (c : Dev nD) :
    ((dats m 0 c).arrAt 3 cfg0.N : S32x1x32.Idx → EReal)
      = fun i => Cert.Mdn.weight (slabOf (X m c) (i 0)) (wOf (W m c)) (bOf (B m c)) (i 2) :=
  finalW (dats m 0 c) (X m c) (W m c) (B m c) (afterW m c)

/-- The array of locations after the run. -/
theorem arrL (c : Dev nD) : ((dats m 0 c).arrAt 4 cfg0.N : S32x32x256.Idx → EReal) = Cert.Mdn.locs (X m c) (W m c) (B m c) :=
  finalL (dats m 0 c) (X m c) (W m c) (B m c) (afterL m c)

/-- The array of scales after the run. -/
theorem arrS (c : Dev nD) : ((dats m 0 c).arrAt 5 cfg0.N : S32x32x256.Idx → EReal) = Cert.Mdn.scales (X m c) (W m c) (B m c) :=
  finalS (dats m 0 c) (X m c) (W m c) (B m c) (afterS m c)

/-- The reshaped mean masses: the host's last operation drops the unit axis. -/
theorem resW (c : Dev nD) :
    (Pipeline.afterTail₀ cfgs (dats m) 0 (V0 m) [hostOps1] c main_v3 : S32x32.Idx → EReal) = Cert.Mdn.weights (X m c) (W m c) (B m c) := by
  funext i
  obtain ⟨b, g, rfl⟩ : ∃ (b : Fin 32) (g : Fin 32), i = ix2 b g := ⟨i 0, i 1, eq_ix2 i⟩
  refine (Cert.Mdn.Tail.tail_weights m (dats m) c b g).trans ?_
  rw [arrW]
  rfl

/-- Every weakly fair execution of the idealized kernel program ends with its three results at the specification of
    the argument arrays, the arguments unchanged. -/
theorem run : θ_run defs (onTc (τ := τ) (main (F := Ideal))) ⟨m, fun _ => 0, ρ⟩ fun r => ∀ c : Dev nD,
      r.2.mem ((c.tc : Thread nD τ).loc main_v3) = Cert.Mdn.weights (X m c) (W m c) (B m c)
      ∧ r.2.mem ((c.tc : Thread nD τ).loc main_v2_2) = Cert.Mdn.scales (X m c) (W m c) (B m c)
      ∧ r.2.mem ((c.tc : Thread nD τ).loc main_v2_1) = Cert.Mdn.locs (X m c) (W m c) (B m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (resW m c),
      ((h c).1 5).trans (arrS m c),
      ((h c).1 4).trans (arrL m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Mdn.Kernel

end
-- ==== Proof.RefSoftmax.lean ====
/-
  The reference program's softmax stage read at coordinates.

  For batch member `b`, sample `n` and gaussian `g` the program computes the logit
  `Σ_d x0[b,n,d] · x1[g,d] + x2[g]`, the row maximum taken from −∞, the shifted exponential, the row's sum of
  exponentials taken from zero, and their quotient: the mixture weight `mix` of the specification.
-/
import proofs.«141120_j24472723652814_2_alg».proof.Proof.Gen.ReferenceIdeal.Read
import proofs.«141120_j24472723652814_2_alg».proof.Proof.Spec

noncomputable section

namespace Cert.Mdn.Ref

open Idealize.ShloMosaic Idealize.ShloMosaic.ValueIdx Cert.ReferenceIdeal Cert.ReferenceIdeal.Gen Cert.ReferenceIdeal.Read

/-- The input array's contents at the ideal instance. -/
abbrev X0 := (⟨S32x1024x512, .f32⟩ : BufTy).Contents (Elt Ideal)
/-- The weight matrix's contents. -/
abbrev X1 := (⟨S32x512, .f32⟩ : BufTy).Contents (Elt Ideal)
/-- The bias's contents. -/
abbrev X2 := (⟨S32, .f32⟩ : BufTy).Contents (Elt Ideal)

/-! ## The logits -/

theorem lidx_v0_ix (b : Fin 32) (n : Fin 1024) (g : Fin 32) (k : Fin 512) :
    lidx_main_v0 (ix3 b n g) k = ix3 b n k :=
  funext fun a => Fin.ext (by match a with | ⟨0, _⟩ => rfl | ⟨1, _⟩ => rfl | ⟨2, _⟩ => rfl)

theorem ridx_v0_ix (b : Fin 32) (n : Fin 1024) (g : Fin 32) (k : Fin 512) :
    ridx_main_v0 (ix3 b n g) k = ix2 g k :=
  funext fun a => Fin.ext (by match a with | ⟨0, _⟩ => rfl | ⟨1, _⟩ => rfl)

theorem idx_v1_v2_ix (b : Fin 32) (n : Fin 1024) (g : Fin 32) :
    idx_main_v1 (idx_main_v2 (ix3 b n g)) = ix1 g :=
  funext fun a => Fin.ext (by match a with | ⟨0, _⟩ => rfl)

/-- The sum of the inner product and the broadcast bias is the specification's logit. -/
theorem v3_ix (x0 : X0) (x1 : X1) (x2 : X2) (b : Fin 32) (n : Fin 1024) (g : Fin 32) :
    val_main_v3 (F := Ideal) x0 x1 x2 (ix3 b n g) = logit (slabOf x0 b n) (wOf x1) (bOf x2) g := by
  rw [val_main_v3_apply, val_main_v0_apply, val_main_v2_apply, val_main_v1_apply, idx_v1_v2_ix]
  simp only [lidx_v0_ix, ridx_v0_ix]
  rfl

/-! ## The row maximum -/

/-- The reduction over the last axis as a relation between the two shapes. -/
theorem reduces_d2 : S32x1024x32.Reduces [2] S32x1024 := by decide

theorem lift_d2_ix (b : Fin 32) (n : Fin 1024) (g : Fin 32) :
    reduces_d2.lift (ix2 b n) g = ix3 b n g :=
  funext fun c => Fin.ext (by match c with | ⟨0, _⟩ => rfl | ⟨1, _⟩ => rfl | ⟨2, _⟩ => rfl)

/-- The logits of one sample, as the function of the gaussian the fold runs over. -/
theorem v3_row (x0 : X0) (x1 : X1) (x2 : X2) (b : Fin 32) (n : Fin 1024) :
    (val_main_v3 (F := Ideal) x0 x1 x2 ∘ reduces_d2.lift (ix2 b n)) = logit (slabOf x0 b n) (wOf x1) (bOf x2) :=
  funext fun g => (congrArg (val_main_v3 (F := Ideal) x0 x1 x2) (lift_d2_ix b n g)).trans (v3_ix x0 x1 x2 b n g)

/-- The reduction by `max` from −∞ over the last axis is the fold over the row of logits. -/
theorem v4_ix (x0 : X0) (x1 : X1) (x2 : X2) (b : Fin 32) (n : Fin 1024) :
    val_main_v4 (F := Ideal) x0 x1 x2 (ix2 b n)
      = (Finset.univ : Finset (Fin 32)).fold max (Ideal.ofBits .f32 0xFF800000#32) (logit (slabOf x0 b n) (wOf x1) (bOf x2)) := by
  unfold val_main_v4
  refine (Host.reduce_eq_fold_single (FloatOps.maximumf (F := Ideal) (φ := .f32)) (val_main_v3 (F := Ideal) x0 x1 x2)
    (val_main_cst (F := Ideal)) reducesTo_S32x1024x32_S32x1024_d2 reduces_d2 h_S_ (ix2 b n)).trans ?_
  rw [v3_row]
  rfl

/-- The maximum of −∞ and that fold is the specification's row maximum. -/
theorem v6_ix (x0 : X0) (x1 : X1) (x2 : X2) (b : Fin 32) (n : Fin 1024) :
    val_main_v6 (F := Ideal) x0 x1 x2 (ix2 b n) = rowMax (logit (slabOf x0 b n) (wOf x1) (bOf x2)) := by
  rw [val_main_v6_apply, val_main_v5_apply, val_main_cst_0_apply, v4_ix]
  rfl

/-! ## The shifted exponential, its row sum, and the quotient -/

theorem idx_v7_v8_ix (b : Fin 32) (n : Fin 1024) (g : Fin 32) :
    idx_main_v7 (idx_main_v8 (ix3 b n g)) = ix2 b n :=
  funext fun a => Fin.ext (by match a with | ⟨0, _⟩ => rfl | ⟨1, _⟩ => rfl)

/-- The exponential of the logit less the broadcast row maximum. -/
theorem v10_ix (x0 : X0) (x1 : X1) (x2 : X2) (b : Fin 32) (n : Fin 1024) (g : Fin 32) :
    val_main_v10 (F := Ideal) x0 x1 x2 (ix3 b n g) = rowExp (logit (slabOf x0 b n) (wOf x1) (bOf x2)) g := by
  rw [val_main_v10_apply, val_main_v9_apply, val_main_v8_apply, val_main_v7_apply, idx_v7_v8_ix, v3_ix, v6_ix]
  rfl

theorem idx_v11_ix (b : Fin 32) (n : Fin 1024) (k : Fin 32) : idx_main_v11 (ix2 b n) k = ix3 b n k :=
  funext fun a => Fin.ext (by match a with | ⟨0, _⟩ => rfl | ⟨1, _⟩ => rfl | ⟨2, _⟩ => rfl)

/-- The sum from zero of the row's exponentials. -/
theorem v11_ix (x0 : X0) (x1 : X1) (x2 : X2) (b : Fin 32) (n : Fin 1024) :
    val_main_v11 (F := Ideal) x0 x1 x2 (ix2 b n) = ∑ g : Fin 32, rowExp (logit (slabOf x0 b n) (wOf x1) (bOf x2)) g := by
  rw [val_main_v11_apply, val_main_cst_1_apply, Ideal.ofBits_def, Ideal.ofBits_zero_f32, zero_add]
  exact Finset.sum_congr rfl fun k _ =>
    (congrArg (val_main_v10 (F := Ideal) x0 x1 x2) (idx_v11_ix b n k)).trans (v10_ix x0 x1 x2 b n k)

theorem idx_v12_v13_ix (b : Fin 32) (n : Fin 1024) (g : Fin 32) :
    idx_main_v12 (idx_main_v13 (ix3 b n g)) = ix2 b n :=
  funext fun a => Fin.ext (by match a with | ⟨0, _⟩ => rfl | ⟨1, _⟩ => rfl)

/-- The exponential over the broadcast row sum is the specification's mixture weight. -/
theorem v14_ix (x0 : X0) (x1 : X1) (x2 : X2) (b : Fin 32) (n : Fin 1024) (g : Fin 32) :
    val_main_v14 (F := Ideal) x0 x1 x2 (ix3 b n g) = mix (slabOf x0 b) (wOf x1) (bOf x2) n g := by
  rw [val_main_v14_apply, val_main_v13_apply, val_main_v12_apply, idx_v12_v13_ix, v10_ix, v11_ix]
  rfl

end Cert.Mdn.Ref

end
-- ==== Proof.RefResults.lean ====
/-
  The reference program's three results are the specification's.

  With the mixture weight `mix` of the softmax stage, the program sums it over the 1024 samples from zero (the mass),
  divides the mass by 1024 (the first result), contracts it with the first half of the features and with
  `μ² + σ²` over the samples, divides both by the broadcast mass (the location and the second moment), and takes the
  square root of the variance clamped at zero (the scale).
-/
import proofs.«141120_j24472723652814_2_alg».proof.Proof.RefSoftmax

noncomputable section

namespace Cert.Mdn.Ref

open Idealize.ShloMosaic Idealize.ShloMosaic.ValueIdx Cert.ReferenceIdeal Cert.ReferenceIdeal.Gen Cert.ReferenceIdeal.Read

/-! ## The mass and the mean mass -/

theorem idx_v17_ix (b g : Fin 32) (k : Fin 1024) : idx_main_v17 (ix2 b g) k = ix3 b k g :=
  funext fun a => Fin.ext (by match a with | ⟨0, _⟩ => rfl | ⟨1, _⟩ => rfl | ⟨2, _⟩ => rfl)

theorem idx_v20_ix (b g : Fin 32) (k : Fin 1024) : idx_main_v20 (ix2 b g) k = ix3 b k g :=
  funext fun a => Fin.ext (by match a with | ⟨0, _⟩ => rfl | ⟨1, _⟩ => rfl | ⟨2, _⟩ => rfl)

/-- The sum of the mixture weights over the samples, taken from the zero word. -/
theorem v17_ix (x0 : X0) (x1 : X1) (x2 : X2) (b g : Fin 32) :
    val_main_v17 (F := Ideal) x0 x1 x2 (ix2 b g)
      = Ideal.ofBits .f32 0x00000000#32 + mass (slabOf x0 b) (wOf x1) (bOf x2) g := by
  rw [val_main_v17_apply, val_main_cst_2_apply, Ideal.ofBits_def]
  refine congrArg (Ideal.ofBits .f32 0x00000000#32 + ·) ?_
  exact Finset.sum_congr rfl fun k _ =>
    (congrArg (val_main_v14 (F := Ideal) x0 x1 x2) (idx_v17_ix b g k)).trans (v14_ix x0 x1 x2 b k g)

/-- The same sum with the zero absorbed: the mass. -/
theorem v20_ix (x0 : X0) (x1 : X1) (x2 : X2) (b g : Fin 32) :
    val_main_v20 (F := Ideal) x0 x1 x2 (ix2 b g) = mass (slabOf x0 b) (wOf x1) (bOf x2) g := by
  rw [val_main_v20_apply, val_main_cst_4_apply, Ideal.ofBits_def, Ideal.ofBits_zero_f32, zero_add]
  exact Finset.sum_congr rfl fun k _ =>
    (congrArg (val_main_v14 (F := Ideal) x0 x1 x2) (idx_v20_ix b g k)).trans (v14_ix x0 x1 x2 b k g)

/-- The first result: the mass over 1024 is the mass times 2⁻¹⁰. -/
theorem ref_weights (x0 : (⟨S32x1024x512, .f32⟩ : BufTy).Contents (Elt Ideal)) (x1 : (⟨S32x512, .f32⟩ : BufTy).Contents (Elt Ideal))
    (x2 : (⟨S32, .f32⟩ : BufTy).Contents (Elt Ideal)) :
    val_main_v19 (F := Ideal) x0 x1 x2 = Cert.Mdn.weights x0 x1 x2 := by
  funext i
  obtain ⟨b, g, rfl⟩ : ∃ (b g : Fin 32), i = ix2 b g := ⟨i 0, i 1, eq_ix2 i⟩
  rw [weights_ix, val_main_v19_apply, val_main_v18_apply, val_main_cst_3_apply, v17_ix]
  exact div_1024_eq _

/-! ## The two halves of the features -/

theorem idx_v15_ix (b : Fin 32) (k : Fin 1024) (o : Fin 256) :
    idx_main_v15 (ix3 b k o) = ix3 b k (⟨o.val, by omega⟩ : Fin 512) :=
  funext fun a => Fin.ext (by match a with | ⟨0, _⟩ => rfl | ⟨1, _⟩ => rfl | ⟨2, _⟩ => rfl)

theorem idx_v16_ix (b : Fin 32) (k : Fin 1024) (o : Fin 256) :
    idx_main_v16 (ix3 b k o) = ix3 b k (⟨256 + o.val, by omega⟩ : Fin 512) :=
  funext fun a => Fin.ext (by match a with | ⟨0, _⟩ => rfl | ⟨1, _⟩ => rfl | ⟨2, _⟩ => rfl)

/-- The first slice is the first half of the features. -/
theorem v15_ix (x0 : X0) (b : Fin 32) (k : Fin 1024) (o : Fin 256) :
    val_main_v15 (F := Ideal) x0 (ix3 b k o) = mu (slabOf x0 b) k o := by
  rw [val_main_v15_apply, idx_v15_ix]
  rfl

/-- The second slice is the second half of the features. -/
theorem v16_ix (x0 : X0) (b : Fin 32) (k : Fin 1024) (o : Fin 256) :
    val_main_v16 (F := Ideal) x0 (ix3 b k o) = sigma (slabOf x0 b) k o := by
  rw [val_main_v16_apply, idx_v16_ix]
  rfl

/-- The sum of the two squares. -/
theorem v27_ix (x0 : X0) (b : Fin 32) (k : Fin 1024) (o : Fin 256) :
    val_main_v27 (F := Ideal) x0 (ix3 b k o)
      = mu (slabOf x0 b) k o * mu (slabOf x0 b) k o + sigma (slabOf x0 b) k o * sigma (slabOf x0 b) k o := by
  rw [val_main_v27_apply, val_main_v25_apply, val_main_v26_apply, v15_ix, v16_ix]
  rfl

/-! ## The location -/

theorem lidx_v21_ix (b g : Fin 32) (o : Fin 256) (k : Fin 1024) : lidx_main_v21 (ix3 b g o) k = ix3 b k g :=
  funext fun a => Fin.ext (by match a with | ⟨0, _⟩ => rfl | ⟨1, _⟩ => rfl | ⟨2, _⟩ => rfl)

theorem ridx_v21_ix (b g : Fin 32) (o : Fin 256) (k : Fin 1024) : ridx_main_v21 (ix3 b g o) k = ix3 b k o :=
  funext fun a => Fin.ext (by match a with | ⟨0, _⟩ => rfl | ⟨1, _⟩ => rfl | ⟨2, _⟩ => rfl)

theorem idx_v22_v23_ix (b g : Fin 32) (o : Fin 256) : idx_main_v22 (idx_main_v23 (ix3 b g o)) = ix2 b g :=
  funext fun a => Fin.ext (by match a with | ⟨0, _⟩ => rfl | ⟨1, _⟩ => rfl)

/-- The mixture weights contracted with the first half over the samples. -/
theorem v21_ix (x0 : X0) (x1 : X1) (x2 : X2) (b g : Fin 32) (o : Fin 256) :
    val_main_v21 (F := Ideal) x0 x1 x2 (ix3 b g o)
      = ∑ n : Fin 1024, mix (slabOf x0 b) (wOf x1) (bOf x2) n g * mu (slabOf x0 b) n o := by
  rw [val_main_v21_apply]
  refine Finset.sum_congr rfl fun k _ => ?_
  rw [lidx_v21_ix, ridx_v21_ix, v14_ix, v15_ix]

/-- That contraction over the broadcast mass is the specification's location. -/
theorem v24_ix (x0 : X0) (x1 : X1) (x2 : X2) (b g : Fin 32) (o : Fin 256) :
    val_main_v24 (F := Ideal) x0 x1 x2 (ix3 b g o) = loc (slabOf x0 b) (wOf x1) (bOf x2) g o := by
  rw [val_main_v24_apply, val_main_v23_apply, val_main_v22_apply, idx_v22_v23_ix, v21_ix, v20_ix]
  rfl

/-- The third result. -/
theorem ref_locs (x0 : (⟨S32x1024x512, .f32⟩ : BufTy).Contents (Elt Ideal)) (x1 : (⟨S32x512, .f32⟩ : BufTy).Contents (Elt Ideal))
    (x2 : (⟨S32, .f32⟩ : BufTy).Contents (Elt Ideal)) :
    val_main_v24 (F := Ideal) x0 x1 x2 = Cert.Mdn.locs x0 x1 x2 := by
  funext i
  obtain ⟨b, g, o, rfl⟩ : ∃ (b g : Fin 32) (o : Fin 256), i = ix3 b g o := ⟨i 0, i 1, i 2, eq_ix3 i⟩
  rw [locs_ix, v24_ix]

/-! ## The second moment and the scale -/

theorem lidx_v28_ix (b g : Fin 32) (o : Fin 256) (k : Fin 1024) : lidx_main_v28 (ix3 b g o) k = ix3 b k g :=
  funext fun a => Fin.ext (by match a with | ⟨0, _⟩ => rfl | ⟨1, _⟩ => rfl | ⟨2, _⟩ => rfl)

theorem ridx_v28_ix (b g : Fin 32) (o : Fin 256) (k : Fin 1024) : ridx_main_v28 (ix3 b g o) k = ix3 b k o :=
  funext fun a => Fin.ext (by match a with | ⟨0, _⟩ => rfl | ⟨1, _⟩ => rfl | ⟨2, _⟩ => rfl)

theorem idx_v29_v30_ix (b g : Fin 32) (o : Fin 256) : idx_main_v29 (idx_main_v30 (ix3 b g o)) = ix2 b g :=
  funext fun a => Fin.ext (by match a with | ⟨0, _⟩ => rfl | ⟨1, _⟩ => rfl)

/-- The mixture weights contracted with the sum of squares over the samples. -/
theorem v28_ix (x0 : X0) (x1 : X1) (x2 : X2) (b g : Fin 32) (o : Fin 256) :
    val_main_v28 (F := Ideal) x0 x1 x2 (ix3 b g o)
      = ∑ n : Fin 1024, mix (slabOf x0 b) (wOf x1) (bOf x2) n g
          * (mu (slabOf x0 b) n o * mu (slabOf x0 b) n o + sigma (slabOf x0 b) n o * sigma (slabOf x0 b) n o) := by
  rw [val_main_v28_apply]
  refine Finset.sum_congr rfl fun k _ => ?_
  rw [lidx_v28_ix, ridx_v28_ix, v14_ix, v27_ix]

/-- That contraction over the broadcast mass is the specification's second moment. -/
theorem v31_ix (x0 : X0) (x1 : X1) (x2 : X2) (b g : Fin 32) (o : Fin 256) :
    val_main_v31 (F := Ideal) x0 x1 x2 (ix3 b g o) = second (slabOf x0 b) (wOf x1) (bOf x2) g o := by
  rw [val_main_v31_apply, val_main_v30_apply, val_main_v29_apply, idx_v29_v30_ix, v28_ix, v20_ix]
  rfl

/-- The square root of the second moment less the squared location, clamped at the zero word. -/
theorem v36_ix (x0 : X0) (x1 : X1) (x2 : X2) (b g : Fin 32) (o : Fin 256) :
    val_main_v36 (F := Ideal) x0 x1 x2 (ix3 b g o) = scale (slabOf x0 b) (wOf x1) (bOf x2) g o := by
  rw [val_main_v36_apply, val_main_v35_apply, val_main_v33_apply, val_main_v32_apply, val_main_v34_apply,
    val_main_cst_5_apply, v31_ix, v24_ix]
  rfl

/-- The second result. -/
theorem ref_scales (x0 : (⟨S32x1024x512, .f32⟩ : BufTy).Contents (Elt Ideal)) (x1 : (⟨S32x512, .f32⟩ : BufTy).Contents (Elt Ideal))
    (x2 : (⟨S32, .f32⟩ : BufTy).Contents (Elt Ideal)) :
    val_main_v36 (F := Ideal) x0 x1 x2 = Cert.Mdn.scales x0 x1 x2 := by
  funext i
  obtain ⟨b, g, o, rfl⟩ : ∃ (b g : Fin 32) (o : Fin 256), i = ix3 b g o := ⟨i 0, i 1, i 2, eq_ix3 i⟩
  rw [scales_ix, v36_ix]

end Cert.Mdn.Ref

end
-- ==== Proof.lean ====
/-
  A mixture-density reduction: the kernel against its jnp reference, on the extended reals.

  For each of 32 batch members, 1024 samples of 512 features are projected onto 32 gaussians (a matrix product with
  a weight matrix plus a bias), the logits of every sample are turned into mixture weights by a softmax, and the
  samples are reduced over: the mean mixture weight of each gaussian, and, with the first half of the features as
  `μ` and the second half as `σ`, the mass-weighted mean of `μ` (the locations) and the square root of the
  mass-weighted mean of `μ² + σ²` minus the squared location, clamped at zero (the scales). Proof/Spec.lean states
  these three arrays as one function each of the three argument arrays.

  The kernel computes them four batch members per grid point, in a loop over the four, with the weight matrix
  transposed and the bias reshaped on the host beforehand and the mean masses reshaped afterwards; the reference
  computes them for all batch members at once. On the extended reals the two are the same expressions entry by
  entry: a change of float format is the identity, a matrix product into a zero accumulator is the host's
  `dot_general`, a lane reduction is the host's `reduce`, and every sum is indexed the same way on both sides. The
  one place where the texts differ is the mean: the kernel multiplies the total mass by 2⁻¹⁰ where the reference
  divides it by 1024, which agree on every extended real (Spec.lean, `div_1024_eq`). No step uses the finiteness of
  the inputs.

  The modules: Spec (the specification), RefSoftmax / RefResults (the reference's run is the specification),
  PaySoftmax / PayResults / PointValue (one trip's arithmetic is the specification of one batch member),
  LoopPieces / BodyValue (what the loop's stores leave in the output blocks), Blocks (the input blocks as parts of
  the argument arrays), Arrays (from the eight points' blocks to the arrays), Tail (the host's last reshape),
  KernelValue (the kernel's run, read). The three frames are the runs with the results dropped; no rewrite was applied
  when the kernel was idealized, so nothing is owed for it.
-/
import proofs.«141120_j24472723652814_2_alg».proof.Defs
import proofs.«141120_j24472723652814_2_alg».proof.Proof.Gen.Kernel
import proofs.«141120_j24472723652814_2_alg».proof.Proof.Gen.KernelIdeal
import proofs.«141120_j24472723652814_2_alg».proof.Proof.Gen.ReferenceIdeal
import proofs.«141120_j24472723652814_2_alg».proof.Proof.Gen.ReferenceIdeal.Run
import proofs.«141120_j24472723652814_2_alg».proof.Proof.Gen.ReferenceIdeal.Read
import proofs.«141120_j24472723652814_2_alg».proof.Proof.Gen.Pre_finite_inputs
import proofs.«141120_j24472723652814_2_alg».proof.Proof.FrameBits
import proofs.«141120_j24472723652814_2_alg».proof.Proof.KernelValue
import proofs.«141120_j24472723652814_2_alg».proof.Proof.RefResults
import Idealize.ShloMosaic.Adequacy
import Idealize.ShloMosaic.Init

noncomputable section

namespace Cert.Proof

open Idealize.ShloMosaic Idealize.ShloMosaic.TcCoe Idealize.SL.Sem

/-- The printed kernel program runs and keeps its arguments. -/
theorem frame_kernel : Cert.frame_Kernel (hKernel := Cert.Kernel.Gen.facts) (hPre_finite_inputs := Cert.Pre_finite_inputs.Gen.facts) :=
  fun m ρ _ => Cert.Kernel.GenP.frame m ρ

/-- The idealized kernel program runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The idealized reference runs and keeps its arguments: its run with the three results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- From memories that agree on the arguments both idealized programs end with the specification's three arrays. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Mdn.weights (Cert.Mdn.Kernel.X m c) (Cert.Mdn.Kernel.W m c) (Cert.Mdn.Kernel.B m c),
    fun c => Cert.Mdn.scales (Cert.Mdn.Kernel.X m c) (Cert.Mdn.Kernel.W m c) (Cert.Mdn.Kernel.B m c),
    fun c => Cert.Mdn.locs (Cert.Mdn.Kernel.X m c) (Cert.Mdn.Kernel.W m c) (Cert.Mdn.Kernel.B m c),
    Cert.Mdn.Kernel.run m ρ, ?_⟩
  refine (θ_run Cert.ReferenceIdeal.defs _ _).mono (fun _ h c => ?_) (Cert.ReferenceIdeal.Value.run (F := Ideal) m' ρ')
  obtain ⟨h19, h36, h24, ha0, ha1, ha2⟩ := h c
  obtain ⟨e0, e1, e2⟩ := hagree c
  refine ⟨?_, ?_, ?_, ha0, ha1, ha2⟩
  · rw [h19, Cert.ReferenceIdeal.Read.val_main_v19_eq, Cert.Mdn.Ref.ref_weights, e0, e1, e2]
  · rw [h36, Cert.ReferenceIdeal.Read.val_main_v36_eq, Cert.Mdn.Ref.ref_scales, e0, e1, e2]
  · rw [h24, Cert.ReferenceIdeal.Read.val_main_v24_eq, Cert.Mdn.Ref.ref_locs, e0, e1, e2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
